-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x8 : Shape := ⟨2, ![128, 8]⟩
abbrev S8x128 : Shape := ⟨2, ![8, 128]⟩
abbrev S128x384 : Shape := ⟨2, ![128, 384]⟩
abbrev S384 : Shape := ⟨1, ![384]⟩
abbrev S50000x384 : Shape := ⟨2, ![50000, 384]⟩
abbrev S5000x128 : Shape := ⟨2, ![5000, 128]⟩
abbrev S5000x384 : Shape := ⟨2, ![5000, 384]⟩
abbrev S1x384 : Shape := ⟨2, ![1, 384]⟩
abbrev S8000x128 : Shape := ⟨2, ![8000, 128]⟩
abbrev S1x128 : Shape := ⟨2, ![1, 128]⟩
abbrev S_ : Shape := ⟨0, ![]⟩
abbrev S800000x1 : Shape := ⟨2, ![800000, 1]⟩
abbrev S800000x8 : Shape := ⟨2, ![800000, 8]⟩
abbrev S4000x128 : Shape := ⟨2, ![4000, 128]⟩
abbrev S4000x8 : Shape := ⟨2, ![4000, 8]⟩
abbrev S50000x8 : Shape := ⟨2, ![50000, 8]⟩
abbrev S50000x8x16 : Shape := ⟨3, ![50000, 8, 16]⟩
abbrev S50000x8x1 : Shape := ⟨3, ![50000, 8, 1]⟩

abbrev nBuf : Space → Nat
  | .hbm => 65
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8, .f32⟩
  | .hbm, ⟨13, _⟩ => ⟨S8x128, .f32⟩
  | .hbm, ⟨14, _⟩ => ⟨S128x384, .f32⟩
  | .hbm, ⟨15, _⟩ => ⟨S384, .f32⟩
  | .hbm, ⟨16, _⟩ => ⟨S50000x384, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x8, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S50000x8, .f32⟩
  | .hbm, ⟨56, _⟩ => ⟨S800000x1, .i32⟩
  | .hbm, ⟨57, _⟩ => ⟨S50000x8, .f32⟩
  | .hbm, ⟨58, _⟩ => ⟨S50000x8x16, .f32⟩
  | .hbm, ⟨59, _⟩ => ⟨S50000x8x1, .f32⟩
  | .hbm, ⟨60, _⟩ => ⟨S_, .f32⟩
  | .hbm, ⟨61, _⟩ => ⟨S50000x8x1, .f32⟩
  | .hbm, ⟨62, _⟩ => ⟨S50000x8x1, .f32⟩
  | .hbm, ⟨63, _⟩ => ⟨S50000x8x16, .f32⟩
  | .hbm, ⟨64, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S384, .f32⟩
  | .local _ .vmem, ⟨4, _⟩ => ⟨S5000x384, .f32⟩
  | .local _ .vmem, ⟨5, _⟩ => ⟨S5000x384, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S128, .f32⟩
  | .local _ .vmem, ⟨10, _⟩ => ⟨S8000x128, .f32⟩
  | .local _ .vmem, ⟨11, _⟩ => ⟨S8000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x8, .f32⟩
  | .local _ .vmem, ⟨21, _⟩ => ⟨S8x128, .f32⟩
  | .local _ .vmem, ⟨22, _⟩ => ⟨S4000x128, .f32⟩
  | .local _ .vmem, ⟨23, _⟩ => ⟨S4000x128, .f32⟩
  | .local _ .vmem, ⟨24, _⟩ => ⟨S4000x8, .f32⟩
  | .local _ .vmem, ⟨25, _⟩ => ⟨S4000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S4000x8_S4000x8_0_0 : ∀ a, (![0, 0] : Fin 2 → Nat) a + S4000x8.size a ≤ S4000x8.size a
  h_S4000x8 : 0 < S4000x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S5000x128_S128x384_S5000x384_1_0_0_1_n_n_wf : DotDims.WF S5000x128 S128x384 S5000x384 [1] [0] [0] [1] [] []
  dot_S8000x128_S128x128_S8000x128_1_0_0_1_n_n_wf : DotDims.WF S8000x128 S128x128 S8000x128 [1] [0] [0] [1] [] []
  gather_S50000x128_S800000x1_S800000x128_1_0_n_n_0_1_1128_wf : GatherDims.WF S50000x128 S800000x1 S800000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .f32 = 32 ∨ (Rect.block (s := S50000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S800000x128.size a
  hwx2_2 : ∀ i : grid2.Coords, EltTy.bits .f32 = 32 ∨ (Rect.block (s := S800000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S800000x128.size a
  hwx2_3 : ∀ i : grid2.Coords, EltTy.bits .f32 = 32 ∨ (Rect.block (s := S800000x128) S4000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S800000x128.size a
  hwx2_6 : ∀ i : grid2.Coords, EltTy.bits .f32 = 32 ∨ (Rect.block (s := S800000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x8.size a ≤ S800000x8.size a
  hwx2_7 : ∀ i : grid2.Coords, EltTy.bits .f32 = 32 ∨ (Rect.block (s := S800000x8) S4000x8.size (cc2_transform_7 i) (hinb2_7 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v28_1) S4000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8 : Shape := ⟨2, ![50000, 8]⟩
abbrev S50000x8x1 : Shape := ⟨3, ![50000, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S800000x8x16, .f32⟩
  | .hbm, ⟨52, _⟩ => ⟨S_, .f32⟩
  | .hbm, ⟨53, _⟩ => ⟨S800000x8, .f32⟩
  | .hbm, ⟨54, _⟩ => ⟨S_, .f32⟩
  | .hbm, ⟨55, _⟩ => ⟨S_, .f32⟩
  | .hbm, ⟨56, _⟩ => ⟨S800000x8, .f32⟩
  | .hbm, ⟨57, _⟩ => ⟨S800000x8, .f32⟩
  | .hbm, ⟨58, _⟩ => ⟨S800000x8, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x8x16, .f32⟩
  | .hbm, ⟨68, _⟩ => ⟨S800000x8x1, .f32⟩
  | .hbm, ⟨69, _⟩ => ⟨S800000x8x16, .f32⟩
  | .hbm, ⟨70, _⟩ => ⟨S800000x8x16, .f32⟩
  | .hbm, ⟨71, _⟩ => ⟨S_, .f32⟩
  | .hbm, ⟨72, _⟩ => ⟨S50000x8x16, .f32⟩
  | .hbm, ⟨73, _⟩ => ⟨S800000x1, .i32⟩
  | .hbm, ⟨74, _⟩ => ⟨S50000x8x16, .f32⟩
  | .hbm, ⟨75, _⟩ => ⟨S_, .f32⟩
  | .hbm, ⟨76, _⟩ => ⟨S50000x8, .f32⟩
  | .hbm, ⟨77, _⟩ => ⟨S800000x1, .i32⟩
  | .hbm, ⟨78, _⟩ => ⟨S50000x8, .f32⟩
  | .hbm, ⟨79, _⟩ => ⟨S50000x8x1, .f32⟩
  | .hbm, ⟨80, _⟩ => ⟨S_, .f32⟩
  | .hbm, ⟨81, _⟩ => ⟨S50000x8x1, .f32⟩
  | .hbm, ⟨82, _⟩ => ⟨S50000x8x1, .f32⟩
  | .hbm, ⟨83, _⟩ => ⟨S50000x8x16, .f32⟩
  | .hbm, ⟨84, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S_S800000x8 : S_.BroadcastsInDim S800000x8 (![] : Fin 0 → Fin S800000x8.rank)
  bcast_S800000x8_S800000x8x1_0_1 : S800000x8.BroadcastsInDim S800000x8x1 (![0, 1] : Fin 2 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8_S800000x1_S800000x8_1_0_0_1_wf : ScatterDims.WF S50000x8 S800000x1 S800000x8 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

class Facts : Prop extends Facts₀ where

variable [Facts]
-- ==== Proof.KB.Region0.lean ====
/-
  Pallas call 0 of the program: the fused query/key/value projection of the node features, tiled over blocks of 5000 node rows.
  Each grid point stages a block of rows of the left operand (window 0), the whole weight matrix (window 1) and
  the whole bias vector (window 2), and the body stores into the output block (window 3) the product of the row block
  with the matrix plus the bias row: a function of the three staged blocks only, the same at every point.
  Stated at any value type, so the same text serves the word-level program and its idealization.
-/
import proofs.«143841_j59579786330257_1_alg».proof.Proof.Gen.Kernel.Launch
import proofs.«143841_j59579786330257_1_alg».proof.Proof.Gen.Kernel.Skeleton
import proofs.«143841_j59579786330257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole staged block -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S384 := Rect.unit (s := S384) ![0] S384.size inb_S384_S384_0
abbrev r0_3 : Rect S5000x384 := Rect.unit (s := S5000x384) ![0, 0] S5000x384.size inb_S5000x384_S5000x384_0_0

/-- The output block after the body, from the three input blocks: its one store, of the product-plus-bias payload of
    the three loads. -/
def out0_3 (x0 : Vec F S5000x128 .f32) (x1 : Vec F S128x384 .f32) (x2 : Vec F S384 .f32) : Vec F S5000x384 .f32 :=
  View.canon [⟨r0_3, k0_pay1 (View.ld x0 r0_0) (View.ld x1 r0_1) (View.ld x2 r0_2)⟩]

/-- The one store covers the output block. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 1000000 in
/-- The body on whole staging memrefs, the inputs' at contents that read `x0 x1 x2` and the output's at anything, runs
    to the continuation with the inputs' as they were and the output's at `out0_3 x0 x1 x2`. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  Pallas call 1 of the program: the projection of the edge features, tiled over blocks of 8000 edge rows.
  Each grid point stages a block of rows of the left operand (window 0), the whole weight matrix (window 1) and
  the whole bias vector (window 2), and the body stores into the output block (window 3) the product of the row block
  with the matrix plus the bias row: a function of the three staged blocks only, the same at every point.
  Stated at any value type, so the same text serves the word-level program and its idealization.
-/
import proofs.«143841_j59579786330257_1_alg».proof.Proof.Gen.Kernel.Launch
import proofs.«143841_j59579786330257_1_alg».proof.Proof.Gen.Kernel.Skeleton
import proofs.«143841_j59579786330257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staged block -/

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- The output block after the body, from the three input blocks: its one store, of the product-plus-bias payload of
    the three loads. -/
def out1_3 (x0 : Vec F S8000x128 .f32) (x1 : Vec F S128x128 .f32) (x2 : Vec F S128 .f32) : Vec F S8000x128 .f32 :=
  View.canon [⟨r1_3, k1_pay1 (View.ld x0 r1_0) (View.ld x1 r1_1) (View.ld x2 r1_2)⟩]

/-- The one store covers the output block. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

/-! ## The body's triple -/

set_option maxHeartbeats 1000000 in
/-- The body on whole staging memrefs, the inputs' at contents that read `x0 x1 x2` and the output's at anything, runs
    to the continuation with the inputs' as they were and the output's at `out1_3 x0 x1 x2`. -/
theorem sound_kernel1 (c : Dev nD) (E : Set ℕ) (i : grid1.Coords) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S8000x128 .f32) (harg4 : arg4.IsWhole)
    (x0 : Vec F S8000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  Pallas call 2 of the program: the edge attention, tiled over blocks of 4000 edges.
  Each grid point stages a block of gathered key rows (window 0), query rows (window 1), edge projections (window 2)
  and value rows (window 3), and the two whole 0/1 grouping matrices (windows 4 and 5). The body first stores the
  block of scores (window 7: the exponential of a quarter of the per-head sums of key times query times edge, the
  per-head sum taken as a product with the first grouping matrix), then the block of carried rows (window 6: the value
  rows times the scores spread back over each head's entries by the second grouping matrix). Both stored blocks are
  functions of the staged input blocks only, the same at every point.
  Stated at any value type, so the same text serves the word-level program and its idealization.
-/
import proofs.«143841_j59579786330257_1_alg».proof.Proof.Gen.Kernel.Launch
import proofs.«143841_j59579786330257_1_alg».proof.Proof.Gen.Kernel.Skeleton
import proofs.«143841_j59579786330257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where it is not fetched the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where it is not fetched the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where it is not fetched the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: where it is not fetched the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: where it is not fetched the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and both stores go through the whole staged block -/

abbrev r2_e : Rect S4000x128 := Rect.unit (s := S4000x128) ![0, 0] S4000x128.size inb_S4000x128_S4000x128_0_0
abbrev r2_g : Rect S128x8 := Rect.unit (s := S128x8) ![0, 0] S128x8.size inb_S128x8_S128x8_0_0
abbrev r2_gt : Rect S8x128 := Rect.unit (s := S8x128) ![0, 0] S8x128.size inb_S8x128_S8x128_0_0
abbrev r2_s : Rect S4000x8 := Rect.unit (s := S4000x8) ![0, 0] S4000x8.size inb_S4000x8_S4000x8_0_0

/-- The score block (window 7) after the body: its one store, of the score payload of the key, query, edge and first
    grouping loads. -/
def out2_7 (x0 x1 x2 : Vec F S4000x128 .f32) (x4 : Vec F S128x8 .f32) : Vec F S4000x8 .f32 :=
  View.canon [⟨r2_s, k2_pay1 (View.ld x0 r2_e) (View.ld x1 r2_e) (View.ld x2 r2_e) (View.ld x4 r2_g)⟩]

/-- The carried block (window 6) after the body: its one store, of the carried payload of all six loads. -/
def out2_6 (x0 x1 x2 x3 : Vec F S4000x128 .f32) (x4 : Vec F S128x8 .f32) (x5 : Vec F S8x128 .f32) : Vec F S4000x128 .f32 :=
  View.canon [⟨r2_e, k2_pay2 (View.ld x0 r2_e) (View.ld x1 r2_e) (View.ld x2 r2_e) (View.ld x4 r2_g) (View.ld x5 r2_gt) (View.ld x3 r2_e)⟩]

/-- Each store covers its block. -/
theorem cover2_7 (p0 : Vec F S4000x8 .f32) (y : S4000x8.Idx) :
    ∃ pc ∈ ([⟨r2_s, p0⟩] : List (View.Piece (Elt F) S4000x8 .f32)), y ∈ pc.1.set :=
  View.cover_of_tiled [⟨r2_s, p0⟩] S4000x8.size (by rfl) y
theorem cover2_6 (p0 : Vec F S4000x128 .f32) (y : S4000x128.Idx) :
    ∃ pc ∈ ([⟨r2_e, p0⟩] : List (View.Piece (Elt F) S4000x128 .f32)), y ∈ pc.1.set :=
  View.cover_of_tiled [⟨r2_e, p0⟩] S4000x128.size (by rfl) y

/-! ## The body's triple -/

set_option maxHeartbeats 2000000 in
/-- The body on whole staging memrefs, the six inputs' at contents that read `x0 … x5` and the two outputs' at anything,
    runs to the continuation with the inputs' as they were and the outputs' at `out2_6` and `out2_7` of the inputs. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S128x8 .f32) (harg5 : arg5.IsWhole) (arg6 : Memref sig .tc .vmem S8x128 .f32) (harg6 : arg6.IsWhole)
    (arg7 : Memref sig .tc .vmem S4000x128 .f32) (harg7 : arg7.IsWhole) (arg8 : Memref sig .tc .vmem S4000x8 .f32) (harg8 : arg8.IsWhole)
    (x0 x1 x2 x3 : Vec F S4000x128 .f32) (x4 : Vec F S128x8 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x4)) -∗ K ⟨⟩))
      ⊢ wp frame (wpE (defs₀ (F := F)) Variants.none c none) E (cc2__edge_attn_kernel i arg1 harg1 arg2 harg2 arg3 harg3 arg4 harg4 arg5 harg5 arg6 harg6 arg7 harg7 arg8 harg8) K := by
  simp only [cc2__edge_attn_kernel_eq_skeleton]; unfold cc2__edge_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of this pipeline on core `c`: the arrays as the region finds them; after the body at point `t` each
    input's buffer at its block and each output's at its `out2_W` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The run of the whole program: four stretches of host lines around three pallas calls.
  The contents of the unscoped buffers at each boundary are a fold from the launch memory: a host stretch applies its
  lines; a pallas call leaves its input arrays as entered and each output array at what its write-backs fold to, and
  touches nothing else. Over these boundary contents each pallas call is a segment (its arrays split out of the
  unscoped buffers at entry and put back at exit), each host stretch a segment, and every weakly fair execution of the
  program terminates with every unscoped buffer at the last boundary's contents. Read at the arguments, which no
  host line writes and which the pallas calls only read, this is the frame; read at the result buffer it names the
  result. Stated at any value type, so the same text serves the word-level program and its idealization.
-/
import proofs.«143841_j59579786330257_1_alg».proof.Proof.KB.Region0
import proofs.«143841_j59579786330257_1_alg».proof.Proof.KB.Region1
import proofs.«143841_j59579786330257_1_alg».proof.Proof.KB.Region2
import proofs.«143841_j59579786330257_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- A buffer the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At pallas call 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the host stretch `hostOps1`. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- A buffer the stretch does not write keeps its contents. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- At pallas call 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-- After the host stretch `hostOps2`. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- A buffer the stretch does not write keeps its contents. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At pallas call 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-- After the host stretch `hostOps3`. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- A buffer the stretch does not write keeps its contents. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ## The arguments end as launched -/

/-- `main_arg0` reaches the end as launched: no host stretch writes it, and a region reads it at most through an input window. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_in m ρ c 0 rfl).trans <| (W1_of m ρ c main_arg0 (by decide)).trans rfl
/-- `main_arg1` reaches the end as launched: no host stretch writes it, and a region reads it at most through an input window. -/
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
    (W4_in m ρ c 0 rfl).trans <| (W3_of m ρ c main_arg1 (by decide)).trans <| (W2_of_ne m ρ c main_arg1 (by decide)).trans <| (W1_of m ρ c main_arg1 (by decide)).trans rfl
/-- `main_arg2` reaches the end as launched: no host stretch writes it, and a region reads it at most through an input window. -/
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
    (W4_of_ne m ρ c main_arg2 (by decide)).trans <| (W3_of m ρ c main_arg2 (by decide)).trans <| (W2_of_ne m ρ c main_arg2 (by decide)).trans <| (W1_of m ρ c main_arg2 (by decide)).trans rfl
/-- `main_arg3` reaches the end as launched: no host stretch writes it, and a region reads it at most through an input window. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
    (W4_of_ne m ρ c main_arg3 (by decide)).trans <| (W3_of m ρ c main_arg3 (by decide)).trans <| (W2_of_ne m ρ c main_arg3 (by decide)).trans <| (W1_of m ρ c main_arg3 (by decide)).trans rfl
/-- `main_arg4` reaches the end as launched: no host stretch writes it, and a region reads it at most through an input window. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
    (W4_of_ne m ρ c main_arg4 (by decide)).trans <| (W3_of m ρ c main_arg4 (by decide)).trans <| (W2_of_ne m ρ c main_arg4 (by decide)).trans <| (W1_of m ρ c main_arg4 (by decide)).trans rfl
/-- `main_arg5` reaches the end as launched: no host stretch writes it, and a region reads it at most through an input window. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
    (W4_of_ne m ρ c main_arg5 (by decide)).trans <| (W3_of m ρ c main_arg5 (by decide)).trans <| (W2_of_ne m ρ c main_arg5 (by decide)).trans <| (W1_of m ρ c main_arg5 (by decide)).trans rfl
/-- `main_arg6` reaches the end as launched: no host stretch writes it, and a region reads it at most through an input window. -/
theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of m ρ c main_arg6 (by decide)).trans <|
    (W4_of_ne m ρ c main_arg6 (by decide)).trans <| (W3_of m ρ c main_arg6 (by decide)).trans <| (W2_of_ne m ρ c main_arg6 (by decide)).trans <| (W1_of m ρ c main_arg6 (by decide)).trans rfl
/-- `main_arg7` reaches the end as launched: no host stretch writes it, and a region reads it at most through an input window. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
    (W4_of_ne m ρ c main_arg7 (by decide)).trans <| (W3_of m ρ c main_arg7 (by decide)).trans <| (W2_of_ne m ρ c main_arg7 (by decide)).trans <| (W1_of m ρ c main_arg7 (by decide)).trans rfl
/-- `main_arg8` reaches the end as launched: no host stretch writes it, and a region reads it at most through an input window. -/
theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of m ρ c main_arg8 (by decide)).trans <|
    (W4_of_ne m ρ c main_arg8 (by decide)).trans <| (W3_of m ρ c main_arg8 (by decide)).trans <| (W2_of_ne m ρ c main_arg8 (by decide)).trans <| (W1_of m ρ c main_arg8 (by decide)).trans rfl
/-- `main_arg9` reaches the end as launched: no host stretch writes it, and a region reads it at most through an input window. -/
theorem W7_main_arg9 (c : Dev nD) : W7 m ρ c (Proc.devRef .tc main_arg9) = m ((c : Thread nD τ).loc main_arg9) :=
  (W7_of m ρ c main_arg9 (by decide)).trans <| (W6_of_ne m ρ c main_arg9 (by decide)).trans <| (W5_of m ρ c main_arg9 (by decide)).trans <|
    (W4_of_ne m ρ c main_arg9 (by decide)).trans <| (W3_of m ρ c main_arg9 (by decide)).trans <| (W2_of_ne m ρ c main_arg9 (by decide)).trans <| (W1_of m ρ c main_arg9 (by decide)).trans rfl
/-- `main_arg10` reaches the end as launched: no host stretch writes it, and a region reads it at most through an input window. -/
theorem W7_main_arg10 (c : Dev nD) : W7 m ρ c (Proc.devRef .tc main_arg10) = m ((c : Thread nD τ).loc main_arg10) :=
  (W7_of m ρ c main_arg10 (by decide)).trans <| (W6_of_ne m ρ c main_arg10 (by decide)).trans <| (W5_of m ρ c main_arg10 (by decide)).trans <|
    (W4_in m ρ c 1 rfl).trans <| (W3_of m ρ c main_arg10 (by decide)).trans <| (W2_of_ne m ρ c main_arg10 (by decide)).trans <| (W1_of m ρ c main_arg10 (by decide)).trans rfl
/-- `main_arg11` reaches the end as launched: no host stretch writes it, and a region reads it at most through an input window. -/
theorem W7_main_arg11 (c : Dev nD) : W7 m ρ c (Proc.devRef .tc main_arg11) = m ((c : Thread nD τ).loc main_arg11) :=
  (W7_of m ρ c main_arg11 (by decide)).trans <| (W6_of_ne m ρ c main_arg11 (by decide)).trans <| (W5_of m ρ c main_arg11 (by decide)).trans <|
    (W4_in m ρ c 2 rfl).trans <| (W3_of m ρ c main_arg11 (by decide)).trans <| (W2_of_ne m ρ c main_arg11 (by decide)).trans <| (W1_of m ρ c main_arg11 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The pallas calls as segments -/

set_option backward.isDefEq.respectTransparency.types false in
/-- Pallas call 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state every unscoped buffer of every core holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run_all m ρ)

/-- THE RUN, READ AT THE RESULT: the result buffer ends at the last boundary's contents there, the arguments as launched. -/
theorem run_result : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v40 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run_all m ρ)

end Cert.Kernel.Hand

end
-- ==== Proof.KI.Region0.lean ====
/-
  Pallas call 0 of the program: the fused query/key/value projection of the node features, tiled over blocks of 5000 node rows.
  Each grid point stages a block of rows of the left operand (window 0), the whole weight matrix (window 1) and
  the whole bias vector (window 2), and the body stores into the output block (window 3) the product of the row block
  with the matrix plus the bias row: a function of the three staged blocks only, the same at every point.
  Stated at any value type, so the same text serves the word-level program and its idealization.
-/
import proofs.«143841_j59579786330257_1_alg».proof.Proof.Gen.KernelIdeal.Launch
import proofs.«143841_j59579786330257_1_alg».proof.Proof.Gen.KernelIdeal.Skeleton
import proofs.«143841_j59579786330257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: where it is not fetched the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: where it is not fetched the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole staged block -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S384 := Rect.unit (s := S384) ![0] S384.size inb_S384_S384_0
abbrev r0_3 : Rect S5000x384 := Rect.unit (s := S5000x384) ![0, 0] S5000x384.size inb_S5000x384_S5000x384_0_0

/-- The output block after the body, from the three input blocks: its one store, of the product-plus-bias payload of
    the three loads. -/
def out0_3 (x0 : Vec F S5000x128 .f32) (x1 : Vec F S128x384 .f32) (x2 : Vec F S384 .f32) : Vec F S5000x384 .f32 :=
  View.canon [⟨r0_3, k0_pay1 (View.ld x0 r0_0) (View.ld x1 r0_1) (View.ld x2 r0_2)⟩]

/-- The one store covers the output block. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 1000000 in
/-- The body on whole staging memrefs, the inputs' at contents that read `x0 x1 x2` and the output's at anything, runs
    to the continuation with the inputs' as they were and the output's at `out0_3 x0 x1 x2`. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Pallas call 1 of the program: the projection of the edge features, tiled over blocks of 8000 edge rows.
  Each grid point stages a block of rows of the left operand (window 0), the whole weight matrix (window 1) and
  the whole bias vector (window 2), and the body stores into the output block (window 3) the product of the row block
  with the matrix plus the bias row: a function of the three staged blocks only, the same at every point.
  Stated at any value type, so the same text serves the word-level program and its idealization.
-/
import proofs.«143841_j59579786330257_1_alg».proof.Proof.Gen.KernelIdeal.Launch
import proofs.«143841_j59579786330257_1_alg».proof.Proof.Gen.KernelIdeal.Skeleton
import proofs.«143841_j59579786330257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: where it is not fetched the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: where it is not fetched the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staged block -/

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_3 : Rect S8000x128 := Rect.unit (s := S8000x128) ![0, 0] S8000x128.size inb_S8000x128_S8000x128_0_0

/-- The output block after the body, from the three input blocks: its one store, of the product-plus-bias payload of
    the three loads. -/
def out1_3 (x0 : Vec F S8000x128 .f32) (x1 : Vec F S128x128 .f32) (x2 : Vec F S128 .f32) : Vec F S8000x128 .f32 :=
  View.canon [⟨r1_3, k1_pay1 (View.ld x0 r1_0) (View.ld x1 r1_1) (View.ld x2 r1_2)⟩]

/-- The one store covers the output block. -/
theorem cover1_3 (p0 : Vec F S8000x128 .f32) (y : S8000x128.Idx) :
    ∃ pc ∈ ([⟨r1_3, p0⟩] : List (View.Piece (Elt F) S8000x128 .f32)), y ∈ pc.1.set :=
  View.cover_of_tiled [⟨r1_3, p0⟩] S8000x128.size (by rfl) y

/-! ## The body's triple -/

set_option maxHeartbeats 1000000 in
/-- The body on whole staging memrefs, the inputs' at contents that read `x0 x1 x2` and the output's at anything, runs
    to the continuation with the inputs' as they were and the output's at `out1_3 x0 x1 x2`. -/
theorem sound_kernel1 (c : Dev nD) (E : Set ℕ) (i : grid1.Coords) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S8000x128 .f32) (harg4 : arg4.IsWhole)
    (x0 : Vec F S8000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Pallas call 2 of the program: the edge attention, tiled over blocks of 4000 edges.
  Each grid point stages a block of gathered key rows (window 0), query rows (window 1), edge projections (window 2)
  and value rows (window 3), and the two whole 0/1 grouping matrices (windows 4 and 5). The body first stores the
  block of scores (window 7: the exponential of a quarter of the per-head sums of key times query times edge, the
  per-head sum taken as a product with the first grouping matrix), then the block of carried rows (window 6: the value
  rows times the scores spread back over each head's entries by the second grouping matrix). Both stored blocks are
  functions of the staged input blocks only, the same at every point.
  Stated at any value type, so the same text serves the word-level program and its idealization.
-/
import proofs.«143841_j59579786330257_1_alg».proof.Proof.Gen.KernelIdeal.Launch
import proofs.«143841_j59579786330257_1_alg».proof.Proof.Gen.KernelIdeal.Skeleton
import proofs.«143841_j59579786330257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: where it is not fetched the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not: where it is not fetched the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not: where it is not fetched the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not: where it is not fetched the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not: where it is not fetched the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and both stores go through the whole staged block -/

abbrev r2_e : Rect S4000x128 := Rect.unit (s := S4000x128) ![0, 0] S4000x128.size inb_S4000x128_S4000x128_0_0
abbrev r2_g : Rect S128x8 := Rect.unit (s := S128x8) ![0, 0] S128x8.size inb_S128x8_S128x8_0_0
abbrev r2_gt : Rect S8x128 := Rect.unit (s := S8x128) ![0, 0] S8x128.size inb_S8x128_S8x128_0_0
abbrev r2_s : Rect S4000x8 := Rect.unit (s := S4000x8) ![0, 0] S4000x8.size inb_S4000x8_S4000x8_0_0

/-- The score block (window 7) after the body: its one store, of the score payload of the key, query, edge and first
    grouping loads. -/
def out2_7 (x0 x1 x2 : Vec F S4000x128 .f32) (x4 : Vec F S128x8 .f32) : Vec F S4000x8 .f32 :=
  View.canon [⟨r2_s, k2_pay1 (View.ld x0 r2_e) (View.ld x1 r2_e) (View.ld x2 r2_e) (View.ld x4 r2_g)⟩]

/-- The carried block (window 6) after the body: its one store, of the carried payload of all six loads. -/
def out2_6 (x0 x1 x2 x3 : Vec F S4000x128 .f32) (x4 : Vec F S128x8 .f32) (x5 : Vec F S8x128 .f32) : Vec F S4000x128 .f32 :=
  View.canon [⟨r2_e, k2_pay2 (View.ld x0 r2_e) (View.ld x1 r2_e) (View.ld x2 r2_e) (View.ld x4 r2_g) (View.ld x5 r2_gt) (View.ld x3 r2_e)⟩]

/-- Each store covers its block. -/
theorem cover2_7 (p0 : Vec F S4000x8 .f32) (y : S4000x8.Idx) :
    ∃ pc ∈ ([⟨r2_s, p0⟩] : List (View.Piece (Elt F) S4000x8 .f32)), y ∈ pc.1.set :=
  View.cover_of_tiled [⟨r2_s, p0⟩] S4000x8.size (by rfl) y
theorem cover2_6 (p0 : Vec F S4000x128 .f32) (y : S4000x128.Idx) :
    ∃ pc ∈ ([⟨r2_e, p0⟩] : List (View.Piece (Elt F) S4000x128 .f32)), y ∈ pc.1.set :=
  View.cover_of_tiled [⟨r2_e, p0⟩] S4000x128.size (by rfl) y

/-! ## The body's triple -/

set_option maxHeartbeats 2000000 in
/-- The body on whole staging memrefs, the six inputs' at contents that read `x0 … x5` and the two outputs' at anything,
    runs to the continuation with the inputs' as they were and the outputs' at `out2_6` and `out2_7` of the inputs. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S128x8 .f32) (harg5 : arg5.IsWhole) (arg6 : Memref sig .tc .vmem S8x128 .f32) (harg6 : arg6.IsWhole)
    (arg7 : Memref sig .tc .vmem S4000x128 .f32) (harg7 : arg7.IsWhole) (arg8 : Memref sig .tc .vmem S4000x8 .f32) (harg8 : arg8.IsWhole)
    (x0 x1 x2 x3 : Vec F S4000x128 .f32) (x4 : Vec F S128x8 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x4)) -∗ K ⟨⟩))
      ⊢ wp frame (wpE (defs₀ (F := F)) Variants.none c none) E (cc2__edge_attn_kernel i arg1 harg1 arg2 harg2 arg3 harg3 arg4 harg4 arg5 harg5 arg6 harg6 arg7 harg7 arg8 harg8) K := by
  simp only [cc2__edge_attn_kernel_eq_skeleton]; unfold cc2__edge_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- The proof data of this pipeline on core `c`: the arrays as the region finds them; after the body at point `t` each
    input's buffer at its block and each output's at its `out2_W` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: four stretches of host lines around three pallas calls.
  The contents of the unscoped buffers at each boundary are a fold from the launch memory: a host stretch applies its
  lines; a pallas call leaves its input arrays as entered and each output array at what its write-backs fold to, and
  touches nothing else. Over these boundary contents each pallas call is a segment (its arrays split out of the
  unscoped buffers at entry and put back at exit), each host stretch a segment, and every weakly fair execution of the
  program terminates with every unscoped buffer at the last boundary's contents. Read at the arguments, which no
  host line writes and which the pallas calls only read, this is the frame; read at the result buffer it names the
  result. Stated at any value type, so the same text serves the word-level program and its idealization.
-/
import proofs.«143841_j59579786330257_1_alg».proof.Proof.KI.Region0
import proofs.«143841_j59579786330257_1_alg».proof.Proof.KI.Region1
import proofs.«143841_j59579786330257_1_alg».proof.Proof.KI.Region2
import proofs.«143841_j59579786330257_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- A buffer the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- At pallas call 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

/-- After the host stretch `hostOps1`. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b
/-- A buffer the stretch does not write keeps its contents. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- At pallas call 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-- After the host stretch `hostOps2`. -/
abbrev W5 : Dev nD → Valuation τ sig (Elt F) := fun c => StableHlo.after hostOps2 (W4 m ρ c)
/-- The same read at the TensorCore's references. -/
abbrev U5 : (c : Dev nD) → (b : Ref sig .tc) → Buf (Elt F) ((c : Thread nD τ).loc b) := fun c b => W5 m ρ c b
/-- A buffer the stretch does not write keeps its contents. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At pallas call 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (U5 m ρ) c).arrAt_in w hw _).trans (A_eq2 (U5 m ρ) c w))

/-- After the host stretch `hostOps3`. -/
abbrev W7 : Dev nD → Valuation τ sig (Elt F) := fun c => StableHlo.after hostOps3 (W6 m ρ c)
/-- The same read at the TensorCore's references. -/
abbrev U7 : (c : Dev nD) → (b : Ref sig .tc) → Buf (Elt F) ((c : Thread nD τ).loc b) := fun c b => W7 m ρ c b
/-- A buffer the stretch does not write keeps its contents. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-! ## The arguments end as launched -/

/-- `main_arg0` reaches the end as launched: no host stretch writes it, and a region reads it at most through an input window. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
    (W4_of_ne m ρ c main_arg0 (by decide)).trans <| (W3_of m ρ c main_arg0 (by decide)).trans <| (W2_in m ρ c 0 rfl).trans <| (W1_of m ρ c main_arg0 (by decide)).trans rfl
/-- `main_arg1` reaches the end as launched: no host stretch writes it, and a region reads it at most through an input window. -/
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
    (W4_in m ρ c 0 rfl).trans <| (W3_of m ρ c main_arg1 (by decide)).trans <| (W2_of_ne m ρ c main_arg1 (by decide)).trans <| (W1_of m ρ c main_arg1 (by decide)).trans rfl
/-- `main_arg2` reaches the end as launched: no host stretch writes it, and a region reads it at most through an input window. -/
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
    (W4_of_ne m ρ c main_arg2 (by decide)).trans <| (W3_of m ρ c main_arg2 (by decide)).trans <| (W2_of_ne m ρ c main_arg2 (by decide)).trans <| (W1_of m ρ c main_arg2 (by decide)).trans rfl
/-- `main_arg3` reaches the end as launched: no host stretch writes it, and a region reads it at most through an input window. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
    (W4_of_ne m ρ c main_arg3 (by decide)).trans <| (W3_of m ρ c main_arg3 (by decide)).trans <| (W2_of_ne m ρ c main_arg3 (by decide)).trans <| (W1_of m ρ c main_arg3 (by decide)).trans rfl
/-- `main_arg4` reaches the end as launched: no host stretch writes it, and a region reads it at most through an input window. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
    (W4_of_ne m ρ c main_arg4 (by decide)).trans <| (W3_of m ρ c main_arg4 (by decide)).trans <| (W2_of_ne m ρ c main_arg4 (by decide)).trans <| (W1_of m ρ c main_arg4 (by decide)).trans rfl
/-- `main_arg5` reaches the end as launched: no host stretch writes it, and a region reads it at most through an input window. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
    (W4_of_ne m ρ c main_arg5 (by decide)).trans <| (W3_of m ρ c main_arg5 (by decide)).trans <| (W2_of_ne m ρ c main_arg5 (by decide)).trans <| (W1_of m ρ c main_arg5 (by decide)).trans rfl
/-- `main_arg6` reaches the end as launched: no host stretch writes it, and a region reads it at most through an input window. -/
theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of m ρ c main_arg6 (by decide)).trans <|
    (W4_of_ne m ρ c main_arg6 (by decide)).trans <| (W3_of m ρ c main_arg6 (by decide)).trans <| (W2_of_ne m ρ c main_arg6 (by decide)).trans <| (W1_of m ρ c main_arg6 (by decide)).trans rfl
/-- `main_arg7` reaches the end as launched: no host stretch writes it, and a region reads it at most through an input window. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
    (W4_of_ne m ρ c main_arg7 (by decide)).trans <| (W3_of m ρ c main_arg7 (by decide)).trans <| (W2_of_ne m ρ c main_arg7 (by decide)).trans <| (W1_of m ρ c main_arg7 (by decide)).trans rfl
/-- `main_arg8` reaches the end as launched: no host stretch writes it, and a region reads it at most through an input window. -/
theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of m ρ c main_arg8 (by decide)).trans <|
    (W4_of_ne m ρ c main_arg8 (by decide)).trans <| (W3_of m ρ c main_arg8 (by decide)).trans <| (W2_of_ne m ρ c main_arg8 (by decide)).trans <| (W1_of m ρ c main_arg8 (by decide)).trans rfl
/-- `main_arg9` reaches the end as launched: no host stretch writes it, and a region reads it at most through an input window. -/
theorem W7_main_arg9 (c : Dev nD) : W7 m ρ c (Proc.devRef .tc main_arg9) = m ((c : Thread nD τ).loc main_arg9) :=
  (W7_of m ρ c main_arg9 (by decide)).trans <| (W6_of_ne m ρ c main_arg9 (by decide)).trans <| (W5_of m ρ c main_arg9 (by decide)).trans <|
    (W4_of_ne m ρ c main_arg9 (by decide)).trans <| (W3_of m ρ c main_arg9 (by decide)).trans <| (W2_of_ne m ρ c main_arg9 (by decide)).trans <| (W1_of m ρ c main_arg9 (by decide)).trans rfl
/-- `main_arg10` reaches the end as launched: no host stretch writes it, and a region reads it at most through an input window. -/
theorem W7_main_arg10 (c : Dev nD) : W7 m ρ c (Proc.devRef .tc main_arg10) = m ((c : Thread nD τ).loc main_arg10) :=
  (W7_of m ρ c main_arg10 (by decide)).trans <| (W6_of_ne m ρ c main_arg10 (by decide)).trans <| (W5_of m ρ c main_arg10 (by decide)).trans <|
    (W4_in m ρ c 1 rfl).trans <| (W3_of m ρ c main_arg10 (by decide)).trans <| (W2_of_ne m ρ c main_arg10 (by decide)).trans <| (W1_of m ρ c main_arg10 (by decide)).trans rfl
/-- `main_arg11` reaches the end as launched: no host stretch writes it, and a region reads it at most through an input window. -/
theorem W7_main_arg11 (c : Dev nD) : W7 m ρ c (Proc.devRef .tc main_arg11) = m ((c : Thread nD τ).loc main_arg11) :=
  (W7_of m ρ c main_arg11 (by decide)).trans <| (W6_of_ne m ρ c main_arg11 (by decide)).trans <| (W5_of m ρ c main_arg11 (by decide)).trans <|
    (W4_in m ρ c 2 rfl).trans <| (W3_of m ρ c main_arg11 (by decide)).trans <| (W2_of_ne m ρ c main_arg11 (by decide)).trans <| (W1_of m ρ c main_arg11 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The pallas calls as segments -/

set_option backward.isDefEq.respectTransparency.types false in
/-- Pallas call 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state every unscoped buffer of every core holds the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run_all m ρ)

/-- THE RUN, READ AT THE RESULT: the result buffer ends at the last boundary's contents there, the arguments as launched. -/
theorem run_result : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v40 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run_all m ρ)

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KPay01.lean ====
/-
  The two projection kernels' stored values, read at an entry.

  Each body multiplies its block of rows by the whole weight matrix (into a zero accumulator, so the product at an
  entry is the plain sum over the 128 contracted positions) and adds the bias row, which is the bias vector laid as
  one row and repeated over the block's rows. Changes of float format are the identity on the extended reals.
-/
import proofs.«143841_j59579786330257_1_alg».proof.Proof.Gen.KernelIdeal.Skeleton
import proofs.«143841_j59579786330257_1_alg».proof.Proof.LibDotRows
import Idealize.ShloMosaic.PureOps.Ideal.Laws
import Idealize.ShloMosaic.Lib.ValueIdx
import Idealize.ShloMosaic.Lib.ValueLayout
import Idealize.ShloMosaic.Lib.Pipeline.Value

noncomputable section

namespace Cert.Hand.KVal

open Idealize.ShloMosaic Idealize.ShloMosaic.ValueIdx Cert.KernelIdeal Cert.KernelIdeal.Gen Cert.Hand
open scoped BigOperators

/-- The first kernel's contraction at (p, q): the sum over k of left (p, k) times right (k, q). -/
theorem dot0_rows (l : S5000x128.Idx → EReal) (r : S128x384.Idx → EReal) (p : Fin 5000) (q : Fin 384) :
    (∑ c : dot_S5000x128_S128x384_S5000x384_1_0_0_1_n_n.contr.Idx,
        l (dot_S5000x128_S128x384_S5000x384_1_0_0_1_n_n.lhsIdx (ix2 p q) c)
          * r (dot_S5000x128_S128x384_S5000x384_1_0_0_1_n_n.rhsIdx (ix2 p q) c))
      = ∑ k : Fin 128, l (ix2 p k) * r (ix2 k q) := by
  dot_rows dot_S5000x128_S128x384_S5000x384_1_0_0_1_n_n S5000x128 S128x384 128

/-- The second kernel's contraction at (p, q). -/
theorem dot1_rows (l : S8000x128.Idx → EReal) (r : S128x128.Idx → EReal) (p : Fin 8000) (q : Fin 128) :
    (∑ c : dot_S8000x128_S128x128_S8000x128_1_0_0_1_n_n.contr.Idx,
        l (dot_S8000x128_S128x128_S8000x128_1_0_0_1_n_n.lhsIdx (ix2 p q) c)
          * r (dot_S8000x128_S128x128_S8000x128_1_0_0_1_n_n.rhsIdx (ix2 p q) c))
      = ∑ k : Fin 128, l (ix2 p k) * r (ix2 k q) := by
  dot_rows dot_S8000x128_S128x128_S8000x128_1_0_0_1_n_n S8000x128 S128x128 128

/-- The node projection's stored value at (p, q): row p of the block times column q of the weights, plus the bias
    at q. -/
theorem pay0_apply (x0 : Vec Ideal S5000x128 .f32) (x1 : Vec Ideal S128x384 .f32) (x2 : Vec Ideal S384 .f32)
    (p : Fin 5000) (q : Fin 384) :
    k0_pay1 (F := Ideal) x0 x1 x2 (ix2 p q) = (∑ k : Fin 128, x0 (ix2 p k) * x1 (ix2 k q)) + x2 (ix1 q) := by
  unfold k0_pay1
  refine (addf_apply _ _ (ix2 p q)).trans (congrArg₂ (· + ·) ?_ ?_)
  · refine (Ideal.matmul_constant_zero_apply dot_S5000x128_S128x384_S5000x384_1_0_0_1_n_n none _ _ (ix2 p q)).trans ?_
    rw [shapeCast_self]
    exact dot0_rows x0 x1 p q
  · refine (broadcastTo_1b_ab_apply _ broadcasts_S1x384_S5000x384 p q).trans ?_
    refine (shapeCast_a_1a_apply _ shapeCasts_S384_S1x384 (0 : Fin 1) q).trans ?_
    exact congrFun (shapeCast_self x2 shapeCasts_S384_S384) (ix1 q)

/-- The edge projection's stored value at (p, q). -/
theorem pay1_apply (x0 : Vec Ideal S8000x128 .f32) (x1 : Vec Ideal S128x128 .f32) (x2 : Vec Ideal S128 .f32)
    (p : Fin 8000) (q : Fin 128) :
    k1_pay1 (F := Ideal) x0 x1 x2 (ix2 p q) = (∑ k : Fin 128, x0 (ix2 p k) * x1 (ix2 k q)) + x2 (ix1 q) := by
  unfold k1_pay1
  refine (addf_apply _ _ (ix2 p q)).trans (congrArg₂ (· + ·) ?_ ?_)
  · refine (Ideal.matmul_constant_zero_apply dot_S8000x128_S128x128_S8000x128_1_0_0_1_n_n none _ _ (ix2 p q)).trans ?_
    exact dot1_rows x0 x1 p q
  · refine (broadcastTo_1b_ab_apply _ broadcasts_S1x128_S8000x128 p q).trans ?_
    exact shapeCast_a_1a_apply x2 shapeCasts_S128_S1x128 (0 : Fin 1) q

end Cert.Hand.KVal

end
-- ==== Proof.KI.Out0.lean ====
/-
  Pallas call 0, read as a value at the extended reals: the output array after the call is, index by index, the
  product of the left operand's row with the weight matrix plus the bias,

      out (n, j) = (sum over k of x (n, k) * w (k, j)) + b (j).

  Point t of the grid writes back rows 5000 t … 5000 t + 4999; its left block is those rows of x, its weight and bias
  blocks are the whole arrays; the 10 blocks tile the output.
-/
import proofs.«143841_j59579786330257_1_alg».proof.Proof.KI.Region0
import proofs.«143841_j59579786330257_1_alg».proof.Proof.KPay01
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The three operand arrays as the region finds them, as functions into the extended reals. -/
abbrev aX0 (c : Dev nD) : S50000x128.Idx → EReal := V c main_arg0
abbrev aW0 (c : Dev nD) : S128x384.Idx → EReal := V c main_v0
abbrev aB0 (c : Dev nD) : S384.Idx → EReal := V c main_v1

theorem hz2_0 : (![0, 0] : Fin 2 → Nat) = fun _ => 0 := funext fun a => by fin_cases a <;> rfl
theorem hz1_0 : (![0] : Fin 1 → Nat) = fun _ => 0 := funext fun a => by fin_cases a <;> rfl

/-- The output array as one function of the three operand arrays. -/
def linArr0 (x : S50000x128.Idx → EReal) (w : S128x384.Idx → EReal) (b : S384.Idx → EReal) : S50000x384.Idx → EReal :=
  fun i => (∑ k : Fin 128, x (ix2 (⟨(i 0).val, (i 0).isLt⟩ : Fin 50000) k) * w (ix2 k (⟨(i 1).val, (i 1).isLt⟩ : Fin 384)))
    + b (ix1 (⟨(i 1).val, (i 1).isLt⟩ : Fin 384))

/-- The block index maps, decided over the grid: the left operand's and the output's row block is the point's number,
    every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of that function of the arrays as the region finds them. -/
theorem flushed0_eq (c : Dev nD) (t : Fin cfg0.N) :
    (dat0 V c).flushed 3 t = ((cfg0.win 3).blk t).view.read (Elt Ideal) (linArr0 (aX0 V c) (aW0 V c) (aB0 V c)) := by
  show (cfg0.win 3).cut (grid0.coords t) ((dat0 V c).after 3 t) = _
  rw [after0_3]
  unfold out0_3
  rw [View.canon_unit_zero hz2_0]
  simp only [View.ld_unit_zero (S := S5000x128) hz2_0, View.ld_unit_zero (S := S128x384) hz2_0, View.ld_unit_zero (S := S384) hz1_0]
  obtain ⟨e00, e01, e10, e11, e20, e30, e31⟩ := idx_facts0 t
  funext j
  obtain ⟨p, q, rfl⟩ : ∃ (p : Fin 5000) (q : Fin 384), j = ix2 p q := ⟨j 0, j 1, eq_ix2 j⟩
  refine (Cert.Hand.KVal.pay0_apply (iblk0 V c 0 t) (iblk0 V c 1 t) (iblk0 V c 2 t) p q).trans ?_
  show (∑ k : Fin 128, aX0 V c (((cfg0.win 0).blk t).view.emb (ix2 p k)) * aW0 V c (((cfg0.win 1).blk t).view.emb (ix2 k q)))
      + aB0 V c (((cfg0.win 2).blk t).view.emb (ix1 q))
    = linArr0 (aX0 V c) (aW0 V c) (aB0 V c) (((cfg0.win 3).blk t).view.emb (ix2 p q))
  unfold linArr0
  have hb : ((cfg0.win 2).blk t).view.emb (ix1 q) = ix1 (⟨((((cfg0.win 3).blk t).view.emb (ix2 p q)) 1).val, ((((cfg0.win 3).blk t).view.emb (ix2 p q)) 1).isLt⟩ : Fin 384) := by
    funext a; apply Fin.ext
    match a with
    | ⟨0, _⟩ => show win0_2.index t (0 : Fin 1) * 384 + 1 * q.val = win0_3.index t (1 : Fin 2) * 384 + 1 * q.val; omega
  rw [hb]
  refine congrArg (· + _) (Finset.sum_congr rfl fun k _ => ?_)
  have hx : ((cfg0.win 0).blk t).view.emb (ix2 p k) = ix2 (⟨((((cfg0.win 3).blk t).view.emb (ix2 p q)) 0).val, ((((cfg0.win 3).blk t).view.emb (ix2 p q)) 0).isLt⟩ : Fin 50000) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ((cfg0.win 1).blk t).view.emb (ix2 k q) = ix2 k (⟨((((cfg0.win 3).blk t).view.emb (ix2 p q)) 1).val, ((((cfg0.win 3).blk t).view.emb (ix2 p q)) 1).isLt⟩ : Fin 384) := by
    funext a; apply Fin.ext
    match a with
    | ⟨0, _⟩ => show win0_1.index t (0 : Fin 2) * 128 + 1 * k.val = k.val; omega
    | ⟨1, _⟩ => show win0_1.index t (1 : Fin 2) * 384 + 1 * q.val = win0_3.index t (1 : Fin 2) * 384 + 1 * q.val; omega
  rw [hx, hw]

/-- An index of the output array is in point `t`'s block iff each coordinate is in the block's range on its axis. -/
theorem mem_blk0 (t : Fin cfg0.N) (i : S50000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v2).slice (win0_3.rect t)).set ↔ _
  rw [View.set_slice_whole, Rect.mem_set_unit]
  exact Iff.rfl

/-- THE OUTPUT ARRAY after the call: that function of the arrays as the region finds them; row `n` is written back by
    point `n / 5000`. -/
theorem arr0_eq (c : Dev nD) :
    (dat0 V c).arrAt 3 cfg0.N = linArr0 (aX0 V c) (aW0 V c) (aB0 V c) :=
  (dat0 V c).arrAt_eq_of_cover 3 (linArr0 (aX0 V c) (aW0 V c) (aB0 V c)) (fun t _ => flushed0_eq V c t) fun i => by
    have hi0 : (i 0).val < 50000 := (i 0).isLt
    have hi1 : (i 1).val < 384 := (i 1).isLt
    have hN : cfg0.N = 10 := N_0
    refine ⟨⟨(i 0).val / 5000, by omega⟩, flush0_3 _, ?_⟩
    obtain ⟨-, -, -, -, -, e30, e31⟩ := idx_facts0 ⟨(i 0).val / 5000, by omega⟩
    rw [mem_blk0]
    intro a
    match a with
    | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
    | ⟨1, _⟩ => show win0_3.index _ (1 : Fin 2) * 384 ≤ (i 1).val ∧ (i 1).val < win0_3.index _ (1 : Fin 2) * 384 + 384; rw [e31]; omega

end Cert.KernelIdeal.Hand

end
-- ==== Proof.KI.Out1.lean ====
/-
  Pallas call 1, read as a value at the extended reals: the output array after the call is, index by index, the
  product of the left operand's row with the weight matrix plus the bias,

      out (n, j) = (sum over k of x (n, k) * w (k, j)) + b (j).

  Point t of the grid writes back rows 8000 t … 8000 t + 7999; its left block is those rows of x, its weight and bias
  blocks are the whole arrays; the 100 blocks tile the output.
-/
import proofs.«143841_j59579786330257_1_alg».proof.Proof.KI.Region1
import proofs.«143841_j59579786330257_1_alg».proof.Proof.KPay01
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The three operand arrays as the region finds them, as functions into the extended reals. -/
abbrev aX1 (c : Dev nD) : S800000x128.Idx → EReal := V c main_arg1
abbrev aW1 (c : Dev nD) : S128x128.Idx → EReal := V c main_arg10
abbrev aB1 (c : Dev nD) : S128.Idx → EReal := V c main_arg11

theorem hz2_1 : (![0, 0] : Fin 2 → Nat) = fun _ => 0 := funext fun a => by fin_cases a <;> rfl
theorem hz1_1 : (![0] : Fin 1 → Nat) = fun _ => 0 := funext fun a => by fin_cases a <;> rfl

/-- The output array as one function of the three operand arrays. -/
def linArr1 (x : S800000x128.Idx → EReal) (w : S128x128.Idx → EReal) (b : S128.Idx → EReal) : S800000x128.Idx → EReal :=
  fun i => (∑ k : Fin 128, x (ix2 (⟨(i 0).val, (i 0).isLt⟩ : Fin 800000) k) * w (ix2 k (⟨(i 1).val, (i 1).isLt⟩ : Fin 128)))
    + b (ix1 (⟨(i 1).val, (i 1).isLt⟩ : Fin 128))

/-- The block index maps, decided over the grid: the left operand's and the output's row block is the point's number,
    every other block index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is block `t` of that function of the arrays as the region finds them. -/
theorem flushed1_eq (c : Dev nD) (t : Fin cfg1.N) :
    (dat1 V c).flushed 3 t = ((cfg1.win 3).blk t).view.read (Elt Ideal) (linArr1 (aX1 V c) (aW1 V c) (aB1 V c)) := by
  show (cfg1.win 3).cut (grid1.coords t) ((dat1 V c).after 3 t) = _
  rw [after1_3]
  unfold out1_3
  rw [View.canon_unit_zero hz2_1]
  simp only [View.ld_unit_zero (S := S8000x128) hz2_1, View.ld_unit_zero (S := S128x128) hz2_1, View.ld_unit_zero (S := S128) hz1_1]
  obtain ⟨e00, e01, e10, e11, e20, e30, e31⟩ := idx_facts1 t
  funext j
  obtain ⟨p, q, rfl⟩ : ∃ (p : Fin 8000) (q : Fin 128), j = ix2 p q := ⟨j 0, j 1, eq_ix2 j⟩
  refine (Cert.Hand.KVal.pay1_apply (iblk1 V c 0 t) (iblk1 V c 1 t) (iblk1 V c 2 t) p q).trans ?_
  show (∑ k : Fin 128, aX1 V c (((cfg1.win 0).blk t).view.emb (ix2 p k)) * aW1 V c (((cfg1.win 1).blk t).view.emb (ix2 k q)))
      + aB1 V c (((cfg1.win 2).blk t).view.emb (ix1 q))
    = linArr1 (aX1 V c) (aW1 V c) (aB1 V c) (((cfg1.win 3).blk t).view.emb (ix2 p q))
  unfold linArr1
  have hb : ((cfg1.win 2).blk t).view.emb (ix1 q) = ix1 (⟨((((cfg1.win 3).blk t).view.emb (ix2 p q)) 1).val, ((((cfg1.win 3).blk t).view.emb (ix2 p q)) 1).isLt⟩ : Fin 128) := by
    funext a; apply Fin.ext
    match a with
    | ⟨0, _⟩ => show win1_2.index t (0 : Fin 1) * 128 + 1 * q.val = win1_3.index t (1 : Fin 2) * 128 + 1 * q.val; omega
  rw [hb]
  refine congrArg (· + _) (Finset.sum_congr rfl fun k _ => ?_)
  have hx : ((cfg1.win 0).blk t).view.emb (ix2 p k) = ix2 (⟨((((cfg1.win 3).blk t).view.emb (ix2 p q)) 0).val, ((((cfg1.win 3).blk t).view.emb (ix2 p q)) 0).isLt⟩ : Fin 800000) k := by
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 128 + 1 * k.val = k.val; omega
  have hw : ((cfg1.win 1).blk t).view.emb (ix2 k q) = ix2 k (⟨((((cfg1.win 3).blk t).view.emb (ix2 p q)) 1).val, ((((cfg1.win 3).blk t).view.emb (ix2 p q)) 1).isLt⟩ : Fin 128) := by
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  rw [hx, hw]

/-- An index of the output array is in point `t`'s block iff each coordinate is in the block's range on its axis. -/
theorem mem_blk1 (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v6).slice (win1_3.rect t)).set ↔ _
  rw [View.set_slice_whole, Rect.mem_set_unit]
  exact Iff.rfl

/-- THE OUTPUT ARRAY after the call: that function of the arrays as the region finds them; row `n` is written back by
    point `n / 8000`. -/
theorem arr1_eq (c : Dev nD) :
    (dat1 V c).arrAt 3 cfg1.N = linArr1 (aX1 V c) (aW1 V c) (aB1 V c) :=
  (dat1 V c).arrAt_eq_of_cover 3 (linArr1 (aX1 V c) (aW1 V c) (aB1 V c)) (fun t _ => flushed1_eq V c t) fun i => by
    have hi0 : (i 0).val < 800000 := (i 0).isLt
    have hi1 : (i 1).val < 128 := (i 1).isLt
    have hN : cfg1.N = 100 := N_1
    refine ⟨⟨(i 0).val / 8000, by omega⟩, flush1_3 _, ?_⟩
    obtain ⟨-, -, -, -, -, e30, e31⟩ := idx_facts1 ⟨(i 0).val / 8000, by omega⟩
    rw [mem_blk1]
    intro a
    match a with
    | ⟨0, _⟩ => show win1_3.index _ (0 : Fin 2) * 8000 ≤ (i 0).val ∧ (i 0).val < win1_3.index _ (0 : Fin 2) * 8000 + 8000; rw [e30]; show (i 0).val / 8000 * 8000 ≤ (i 0).val ∧ (i 0).val < (i 0).val / 8000 * 8000 + 8000; omega
    | ⟨1, _⟩ => show win1_3.index _ (1 : Fin 2) * 128 ≤ (i 1).val ∧ (i 1).val < win1_3.index _ (1 : Fin 2) * 128 + 128; rw [e31]; omega

end Cert.KernelIdeal.Hand

end
-- ==== Proof.KPay2.lean ====
/-
  The edge kernel's two stored values, read at an entry.

  The score block: the entrywise product of the three row blocks (key, query, edge), multiplied by the table `g`
  (into a zero accumulator: the plain sum over the 128 entries), scaled by the float 0.25, exponentiated.
  The carried block: the value block times, entry by entry, the score block multiplied by the table `gt` (the plain sum
  over the 8 heads). Changes of float format and casts to the same shape are the identity on the extended reals.
-/
import proofs.«143841_j59579786330257_1_alg».proof.Proof.Gen.KernelIdeal.Skeleton
import proofs.«143841_j59579786330257_1_alg».proof.Proof.LibDotRows
import Idealize.ShloMosaic.PureOps.Ideal.Laws
import Idealize.ShloMosaic.Lib.ValueIdx
import Idealize.ShloMosaic.Lib.Pipeline.Value

noncomputable section

namespace Cert.Hand.KVal

open Idealize.ShloMosaic Idealize.ShloMosaic.ValueIdx Cert.KernelIdeal Cert.KernelIdeal.Gen Cert.Hand
open scoped BigOperators

/-- The contraction with `g` at (p, q): the sum over the 128 entries f of left (p, f) times right (f, q). -/
theorem dot2_rows (l : S4000x128.Idx → EReal) (r : S128x8.Idx → EReal) (p : Fin 4000) (q : Fin 8) :
    (∑ c : dot_S4000x128_S128x8_S4000x8_1_0_0_1_n_n.contr.Idx,
        l (dot_S4000x128_S128x8_S4000x8_1_0_0_1_n_n.lhsIdx (ix2 p q) c)
          * r (dot_S4000x128_S128x8_S4000x8_1_0_0_1_n_n.rhsIdx (ix2 p q) c))
      = ∑ k : Fin 128, l (ix2 p k) * r (ix2 k q) := by
  dot_rows dot_S4000x128_S128x8_S4000x8_1_0_0_1_n_n S4000x128 S128x8 128

/-- The contraction with `gt` at (p, q): the sum over the 8 heads h of left (p, h) times right (h, q). -/
theorem dot3_rows (l : S4000x8.Idx → EReal) (r : S8x128.Idx → EReal) (p : Fin 4000) (q : Fin 128) :
    (∑ c : dot_S4000x8_S8x128_S4000x128_1_0_0_1_n_n.contr.Idx,
        l (dot_S4000x8_S8x128_S4000x128_1_0_0_1_n_n.lhsIdx (ix2 p q) c)
          * r (dot_S4000x8_S8x128_S4000x128_1_0_0_1_n_n.rhsIdx (ix2 p q) c))
      = ∑ k : Fin 8, l (ix2 p k) * r (ix2 k q) := by
  dot_rows dot_S4000x8_S8x128_S4000x128_1_0_0_1_n_n S4000x8 S8x128 8

/-- The score block at (p, h): the exponential of a quarter of the sum, over the 128 entries f, of
    key * query * edge at (p, f) times `g` at (f, h). -/
theorem pay2s_apply (k q e : Vec Ideal S4000x128 .f32) (g : Vec Ideal S128x8 .f32) (p : Fin 4000) (h : Fin 8) :
    k2_pay1 (F := Ideal) k q e g (ix2 p h)
      = Ideal.exp ((∑ f : Fin 128, (k (ix2 p f) * q (ix2 p f) * e (ix2 p f)) * g (ix2 f h))
          * Ideal.ofBits .f32 0x3E800000#32) := by
  unfold k2_pay1
  simp only [shapeCast_self]
  refine congrArg Ideal.exp ?_
  refine (mulf_apply _ _ (ix2 p h)).trans (congrArg₂ (· * ·) ?_ rfl)
  refine (Ideal.matmul_constant_zero_apply dot_S4000x128_S128x8_S4000x8_1_0_0_1_n_n none _ _ (ix2 p h)).trans ?_
  exact dot2_rows (fun i => k i * q i * e i) g p h

/-- The carried block at (p, f): the value at (p, f) times the sum, over the 8 heads h, of the score at (p, h)
    times `gt` at (h, f). -/
theorem pay2w_apply (k q e : Vec Ideal S4000x128 .f32) (g : Vec Ideal S128x8 .f32) (gt : Vec Ideal S8x128 .f32)
    (v : Vec Ideal S4000x128 .f32) (p : Fin 4000) (f : Fin 128) :
    k2_pay2 (F := Ideal) k q e g gt v (ix2 p f)
      = v (ix2 p f) * ∑ h : Fin 8, k2_pay1 (F := Ideal) k q e g (ix2 p h) * gt (ix2 h f) := by
  unfold k2_pay2
  rw [shapeCast_self]
  refine (mulf_apply _ _ (ix2 p f)).trans (congrArg (v (ix2 p f) * ·) ?_)
  refine (Ideal.matmul_constant_zero_apply dot_S4000x8_S8x128_S4000x128_1_0_0_1_n_n none _ _ (ix2 p f)).trans ?_
  exact dot3_rows (k2_pay1 (F := Ideal) k q e g) gt p f

end Cert.Hand.KVal

end
-- ==== Proof.KI.Out2.lean ====
/-
  Pallas call 2, read as a value at the extended reals. After the call, index by index,

      score (e, h)   = exp ((sum over f of (k (e, f) * q (e, f) * x (e, f)) * g (f, h)) * quarter)
      carried (e, f) = v (e, f) * (sum over h of score (e, h) * gt (h, f))

  where k, q, x, v are the gathered key, query, edge-projection and value rows, g and gt the two grouping matrices and
  quarter the body's literal. Point t of the grid writes back rows 4000 t … 4000 t + 3999 of both arrays; its four row
  blocks are those rows of k, q, x, v and its grouping blocks the whole matrices; the 200 blocks tile each output.
-/
import proofs.«143841_j59579786330257_1_alg».proof.Proof.KI.Region2
import proofs.«143841_j59579786330257_1_alg».proof.Proof.KPay2
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The six operand arrays as the region finds them, as functions into the extended reals. -/
abbrev aK (c : Dev nD) : S800000x128.Idx → EReal := V c main_v13
abbrev aQ (c : Dev nD) : S800000x128.Idx → EReal := V c main_v20
abbrev aE (c : Dev nD) : S800000x128.Idx → EReal := V c main_v6
abbrev aV (c : Dev nD) : S800000x128.Idx → EReal := V c main_v27
abbrev aG (c : Dev nD) : S128x8.Idx → EReal := V c main_cst
abbrev aGT (c : Dev nD) : S8x128.Idx → EReal := V c main_cst_0

theorem hz2_2 : (![0, 0] : Fin 2 → Nat) = fun _ => 0 := funext fun a => by fin_cases a <;> rfl

/-- The score array as one function of the gathered rows and the first grouping matrix. -/
def scoreArr (k q x : S800000x128.Idx → EReal) (g : S128x8.Idx → EReal) : S800000x8.Idx → EReal :=
  fun i => Ideal.exp ((∑ f : Fin 128, (k (ix2 (⟨(i 0).val, (i 0).isLt⟩ : Fin 800000) f) * q (ix2 (⟨(i 0).val, (i 0).isLt⟩ : Fin 800000) f)
      * x (ix2 (⟨(i 0).val, (i 0).isLt⟩ : Fin 800000) f)) * g (ix2 f (⟨(i 1).val, (i 1).isLt⟩ : Fin 8))) * Ideal.ofBits .f32 0x3E800000#32)

/-- The carried array as one function of the gathered rows and both grouping matrices. -/
def carArr (k q x v : S800000x128.Idx → EReal) (g : S128x8.Idx → EReal) (gt : S8x128.Idx → EReal) : S800000x128.Idx → EReal :=
  fun i => v (ix2 (⟨(i 0).val, (i 0).isLt⟩ : Fin 800000) (⟨(i 1).val, (i 1).isLt⟩ : Fin 128))
    * ∑ h : Fin 8, scoreArr k q x g (ix2 (⟨(i 0).val, (i 0).isLt⟩ : Fin 800000) h) * gt (ix2 h (⟨(i 1).val, (i 1).isLt⟩ : Fin 128))

/-- The block index maps, decided over the grid: the four row operands' and both outputs' row block is the point's
    number, every other block index is 0. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

section Blocks
variable (c : Dev nD) (t : Fin cfg2.N)

/-- A row of a row block is row `4000 t + p` of its array (windows 0 to 3). -/
theorem rowblk0 (p : Fin 4000) (f : Fin 128) (h : t.val * 4000 + p.val < 800000) :
    iblk2 V c 0 t (ix2 p f) = aK V c (ix2 (⟨t.val * 4000 + p.val, h⟩ : Fin 800000) f) := by
  obtain ⟨⟨e0, e1⟩, -⟩ := idx_facts2 t
  show aK V c (((cfg2.win 0).blk t).view.emb (ix2 p f)) = _
  refine congrArg (aK V c) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * f.val = f.val; omega
theorem rowblk1 (p : Fin 4000) (f : Fin 128) (h : t.val * 4000 + p.val < 800000) :
    iblk2 V c 1 t (ix2 p f) = aQ V c (ix2 (⟨t.val * 4000 + p.val, h⟩ : Fin 800000) f) := by
  obtain ⟨-, ⟨e0, e1⟩, -⟩ := idx_facts2 t
  show aQ V c (((cfg2.win 1).blk t).view.emb (ix2 p f)) = _
  refine congrArg (aQ V c) (funext fun a => Fin.ext ?_)
  match a with
  | ⟨0, _⟩ => show win2_1.index t (0 : Fin 2) * 4000 + 1 * p.val = t.val * 4000 + p.val; omega
  | ⟨1, _⟩ => show win2_1.index t (1 : Fin 2) * 128 + 1 * f.val = f.val; omega
theorem rowblk2 (p : Fin 4000) (f : Fin 128) (h : t.val * 4000 + p.val < 800000) :
    iblk2 V c 2 t (ix2 p f) = aE V c (ix2 (⟨t.val * 4000 + p.val, h⟩ : Fin 800000) f) := by
  obtain ⟨-, -, ⟨e0, e1⟩, -⟩ := idx_facts2 t
  show aE V c (((cfg2.win 2).blk t).view.emb (ix2 p f)) = _
  refine congrArg (aE V c) (funext fun a => Fin.ext ?_)
  match a with
  | ⟨0, _⟩ => show win2_2.index t (0 : Fin 2) * 4000 + 1 * p.val = t.val * 4000 + p.val; omega
  | ⟨1, _⟩ => show win2_2.index t (1 : Fin 2) * 128 + 1 * f.val = f.val; omega
theorem rowblk3 (p : Fin 4000) (f : Fin 128) (h : t.val * 4000 + p.val < 800000) :
    iblk2 V c 3 t (ix2 p f) = aV V c (ix2 (⟨t.val * 4000 + p.val, h⟩ : Fin 800000) f) := by
  obtain ⟨-, -, -, ⟨e0, e1⟩, -⟩ := idx_facts2 t
  show aV V c (((cfg2.win 3).blk t).view.emb (ix2 p f)) = _
  refine congrArg (aV V c) (funext fun a => Fin.ext ?_)
  match a with
  | ⟨0, _⟩ => show win2_3.index t (0 : Fin 2) * 4000 + 1 * p.val = t.val * 4000 + p.val; omega
  | ⟨1, _⟩ => show win2_3.index t (1 : Fin 2) * 128 + 1 * f.val = f.val; omega
/-- The grouping blocks are the whole matrices (windows 4 and 5). -/
theorem gblk (f : Fin 128) (h : Fin 8) : iblk2 V c 4 t (ix2 f h) = aG V c (ix2 f h) := by
  obtain ⟨-, -, -, -, ⟨e0, e1⟩, -⟩ := idx_facts2 t
  show aG V c (((cfg2.win 4).blk t).view.emb (ix2 f h)) = _
  refine congrArg (aG V c) (funext fun a => Fin.ext ?_)
  match a with
  | ⟨0, _⟩ => show win2_4.index t (0 : Fin 2) * 128 + 1 * f.val = f.val; omega
  | ⟨1, _⟩ => show win2_4.index t (1 : Fin 2) * 8 + 1 * h.val = h.val; omega
theorem gtblk (h : Fin 8) (f : Fin 128) : iblk2 V c 5 t (ix2 h f) = aGT V c (ix2 h f) := by
  obtain ⟨-, -, -, -, -, ⟨e0, e1⟩, -⟩ := idx_facts2 t
  show aGT V c (((cfg2.win 5).blk t).view.emb (ix2 h f)) = _
  refine congrArg (aGT V c) (funext fun a => Fin.ext ?_)
  match a with
  | ⟨0, _⟩ => show win2_5.index t (0 : Fin 2) * 8 + 1 * h.val = h.val; omega
  | ⟨1, _⟩ => show win2_5.index t (1 : Fin 2) * 128 + 1 * f.val = f.val; omega

/-- The score payload of the point's blocks, at row `p` and head `h`, is the score function of the arrays at row
    `4000 t + p`. -/
theorem pay_score (p : Fin 4000) (h : Fin 8) (hp : t.val * 4000 + p.val < 800000) :
    k2_pay1 (F := Ideal) (iblk2 V c 0 t) (iblk2 V c 1 t) (iblk2 V c 2 t) (iblk2 V c 4 t) (ix2 p h)
      = scoreArr (aK V c) (aQ V c) (aE V c) (aG V c) (ix2 (⟨t.val * 4000 + p.val, hp⟩ : Fin 800000) h) := by
  refine (Cert.Hand.KVal.pay2s_apply (iblk2 V c 0 t) (iblk2 V c 1 t) (iblk2 V c 2 t) (iblk2 V c 4 t) p h).trans ?_
  show _ = Ideal.exp ((∑ f : Fin 128, (aK V c (ix2 (⟨t.val * 4000 + p.val, hp⟩ : Fin 800000) f) * aQ V c (ix2 (⟨t.val * 4000 + p.val, hp⟩ : Fin 800000) f)
      * aE V c (ix2 (⟨t.val * 4000 + p.val, hp⟩ : Fin 800000) f)) * aG V c (ix2 f h)) * Ideal.ofBits .f32 0x3E800000#32)
  refine congrArg (fun s => Ideal.exp (s * Ideal.ofBits .f32 0x3E800000#32)) (Finset.sum_congr rfl fun f _ => ?_)
  rw [rowblk0 V c t p f hp, rowblk1 V c t p f hp, rowblk2 V c t p f hp, gblk V c t f h]

end Blocks

/-- WHAT POINT `t` WRITES BACK to the score array is block `t` of the score function of the arrays as the region finds
    them. -/
theorem flushed2_7_eq (c : Dev nD) (t : Fin cfg2.N) :
    (dat2 V c).flushed 7 t = ((cfg2.win 7).blk t).view.read (Elt Ideal) (scoreArr (aK V c) (aQ V c) (aE V c) (aG V c)) := by
  show (cfg2.win 7).cut (grid2.coords t) ((dat2 V c).after 7 t) = _
  rw [after2_7]
  unfold out2_7
  rw [View.canon_unit_zero hz2_2]
  simp only [View.ld_unit_zero (S := S4000x128) hz2_2, View.ld_unit_zero (S := S128x8) hz2_2]
  obtain ⟨-, -, -, -, -, -, -, ⟨e70, e71⟩⟩ := idx_facts2 t
  have ht : t.val < 200 := N_2 ▸ t.isLt
  funext j
  obtain ⟨p, h, rfl⟩ : ∃ (p : Fin 4000) (h : Fin 8), j = ix2 p h := ⟨j 0, j 1, eq_ix2 j⟩
  have hp : t.val * 4000 + p.val < 800000 := by have := p.isLt; omega
  refine (pay_score V c t p h hp).trans ?_
  show _ = scoreArr (aK V c) (aQ V c) (aE V c) (aG V c) (((cfg2.win 7).blk t).view.emb (ix2 p h))
  refine congrArg (scoreArr (aK V c) (aQ V c) (aE V c) (aG V c)) (funext fun a => Fin.ext ?_)
  match a with
  | ⟨0, _⟩ => show t.val * 4000 + p.val = win2_7.index t (0 : Fin 2) * 4000 + 1 * p.val; omega
  | ⟨1, _⟩ => show h.val = win2_7.index t (1 : Fin 2) * 8 + 1 * h.val; omega

/-- WHAT POINT `t` WRITES BACK to the carried array is block `t` of the carried function of the arrays as the region
    finds them. -/
theorem flushed2_6_eq (c : Dev nD) (t : Fin cfg2.N) :
    (dat2 V c).flushed 6 t = ((cfg2.win 6).blk t).view.read (Elt Ideal)
      (carArr (aK V c) (aQ V c) (aE V c) (aV V c) (aG V c) (aGT V c)) := by
  show (cfg2.win 6).cut (grid2.coords t) ((dat2 V c).after 6 t) = _
  rw [after2_6]
  unfold out2_6
  rw [View.canon_unit_zero hz2_2]
  simp only [View.ld_unit_zero (S := S4000x128) hz2_2, View.ld_unit_zero (S := S128x8) hz2_2, View.ld_unit_zero (S := S8x128) hz2_2]
  obtain ⟨-, -, -, -, -, -, ⟨e60, e61⟩, -⟩ := idx_facts2 t
  have ht : t.val < 200 := N_2 ▸ t.isLt
  funext j
  obtain ⟨p, f, rfl⟩ : ∃ (p : Fin 4000) (f : Fin 128), j = ix2 p f := ⟨j 0, j 1, eq_ix2 j⟩
  have hp : t.val * 4000 + p.val < 800000 := by have := p.isLt; omega
  refine (Cert.Hand.KVal.pay2w_apply (iblk2 V c 0 t) (iblk2 V c 1 t) (iblk2 V c 2 t) (iblk2 V c 4 t) (iblk2 V c 5 t) (iblk2 V c 3 t) p f).trans ?_
  have hemb : ((cfg2.win 6).blk t).view.emb (ix2 p f) = ix2 (⟨t.val * 4000 + p.val, hp⟩ : Fin 800000) f := by
    funext a; apply Fin.ext
    match a with
    | ⟨0, _⟩ => show win2_6.index t (0 : Fin 2) * 4000 + 1 * p.val = t.val * 4000 + p.val; omega
    | ⟨1, _⟩ => show win2_6.index t (1 : Fin 2) * 128 + 1 * f.val = f.val; omega
  show _ = carArr (aK V c) (aQ V c) (aE V c) (aV V c) (aG V c) (aGT V c) (((cfg2.win 6).blk t).view.emb (ix2 p f))
  rw [hemb]
  show _ = aV V c (ix2 (⟨t.val * 4000 + p.val, hp⟩ : Fin 800000) f)
    * ∑ h : Fin 8, scoreArr (aK V c) (aQ V c) (aE V c) (aG V c) (ix2 (⟨t.val * 4000 + p.val, hp⟩ : Fin 800000) h) * aGT V c (ix2 h f)
  rw [rowblk3 V c t p f hp]
  refine congrArg (aV V c (ix2 (⟨t.val * 4000 + p.val, hp⟩ : Fin 800000) f) * ·) (Finset.sum_congr rfl fun h _ => ?_)
  rw [pay_score V c t p h hp, gtblk V c t h f]

/-- An index of an output array is in point `t`'s block iff each coordinate is in the block's range on its axis. -/
theorem mem_blk2_7 (t : Fin cfg2.N) (i : S800000x8.Idx) :
    i ∈ ((cfg2.win 7).blk t).view.set ↔ ∀ a : Fin 2, win2_7.index t a * S4000x8.size a ≤ (i a).val ∧ (i a).val < win2_7.index t a * S4000x8.size a + S4000x8.size a := by
  show i ∈ ((View.whole main_v28_1).slice (win2_7.rect t)).set ↔ _
  rw [View.set_slice_whole, Rect.mem_set_unit]
  exact Iff.rfl
theorem mem_blk2_6 (t : Fin cfg2.N) (i : S800000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v28_0).slice (win2_6.rect t)).set ↔ _
  rw [View.set_slice_whole, Rect.mem_set_unit]
  exact Iff.rfl

/-- THE SCORE ARRAY after the call; row `e` is written back by point `e / 4000`. -/
theorem arr2_7_eq (c : Dev nD) :
    (dat2 V c).arrAt 7 cfg2.N = scoreArr (aK V c) (aQ V c) (aE V c) (aG V c) :=
  (dat2 V c).arrAt_eq_of_cover 7 (scoreArr (aK V c) (aQ V c) (aE V c) (aG V c)) (fun t _ => flushed2_7_eq V c t) fun i => by
    have hi0 : (i 0).val < 800000 := (i 0).isLt
    have hi1 : (i 1).val < 8 := (i 1).isLt
    have hN : cfg2.N = 200 := N_2
    refine ⟨⟨(i 0).val / 4000, by omega⟩, flush2_7 _, ?_⟩
    obtain ⟨-, -, -, -, -, -, -, ⟨e0, e1⟩⟩ := idx_facts2 ⟨(i 0).val / 4000, by omega⟩
    rw [mem_blk2_7]
    intro a
    match a with
    | ⟨0, _⟩ => show win2_7.index _ (0 : Fin 2) * 4000 ≤ (i 0).val ∧ (i 0).val < win2_7.index _ (0 : Fin 2) * 4000 + 4000; rw [e0]; show (i 0).val / 4000 * 4000 ≤ (i 0).val ∧ (i 0).val < (i 0).val / 4000 * 4000 + 4000; omega
    | ⟨1, _⟩ => show win2_7.index _ (1 : Fin 2) * 8 ≤ (i 1).val ∧ (i 1).val < win2_7.index _ (1 : Fin 2) * 8 + 8; rw [e1]; omega

/-- THE CARRIED ARRAY after the call; row `e` is written back by point `e / 4000`. -/
theorem arr2_6_eq (c : Dev nD) :
    (dat2 V c).arrAt 6 cfg2.N = carArr (aK V c) (aQ V c) (aE V c) (aV V c) (aG V c) (aGT V c) :=
  (dat2 V c).arrAt_eq_of_cover 6 (carArr (aK V c) (aQ V c) (aE V c) (aV V c) (aG V c) (aGT V c)) (fun t _ => flushed2_6_eq V c t) fun i => by
    have hi0 : (i 0).val < 800000 := (i 0).isLt
    have hi1 : (i 1).val < 128 := (i 1).isLt
    have hN : cfg2.N = 200 := N_2
    refine ⟨⟨(i 0).val / 4000, by omega⟩, flush2_6 _, ?_⟩
    obtain ⟨-, -, -, -, -, -, ⟨e0, e1⟩, -⟩ := idx_facts2 ⟨(i 0).val / 4000, by omega⟩
    rw [mem_blk2_6]
    intro a
    match a with
    | ⟨0, _⟩ => show win2_6.index _ (0 : Fin 2) * 4000 ≤ (i 0).val ∧ (i 0).val < win2_6.index _ (0 : Fin 2) * 4000 + 4000; rw [e0]; show (i 0).val / 4000 * 4000 ≤ (i 0).val ∧ (i 0).val < (i 0).val / 4000 * 4000 + 4000; omega
    | ⟨1, _⟩ => show win2_6.index _ (1 : Fin 2) * 128 ≤ (i 1).val ∧ (i 1).val < win2_6.index _ (1 : Fin 2) * 128 + 128; rw [e1]; omega

end Cert.KernelIdeal.Hand

end
-- ==== Proof.Spec.lean ====
/-
  The function both programs compute, at the extended reals.

  A graph with 50000 nodes and 800000 edges; every feature row has 128 entries, read as 8 heads of 16. Each node
  feature row is projected three times (queries, keys, values) and each edge feature row once, by a 128 x 128 matrix
  and a bias. For an edge e from node s(e) to node t(e), head h scores

      score e h = exp ((sum over the 16 entries of head h of  key[s(e)] * query[t(e)] * edge[e]) * (1/4)),

  the edge carries the value row of s(e) with every head scaled by its score, and each node n and head h collects,
  over the edges whose target word reads n, the carried rows (the numerator) and the scores (the denominator):

      out n h d = numerator n (16 h + d) / (denominator n h + eps).

  The source and target ROWS are read off integer words (a negative word first raised by 50000, then read signed and
  clamped into the table); the edges collected at a
  node are those whose raw target word reads exactly that node's number (a word outside the table collects nowhere).
-/
import Idealize.ShloMosaic.PureOps.Ideal
import Idealize.ShloMosaic.Lib.ValueIdx

noncomputable section

namespace Cert.Hand.Spec

open Idealize.ShloMosaic Idealize.ShloMosaic.ValueIdx
open scoped BigOperators

/-- Entry `d` of head `h` among the 128 entries of a row. -/
def hd (h : Fin 8) (d : Fin 16) : Fin 128 := ⟨16 * h.val + d.val, by have := h.isLt; have := d.isLt; omega⟩

/-- The head an entry belongs to. -/
def headOf (f : Fin 128) : Fin 8 := ⟨f.val / 16, by have := f.isLt; omega⟩

theorem headOf_hd (h : Fin 8) (d : Fin 16) : headOf (hd h d) = h := by
  apply Fin.ext; show (16 * h.val + d.val) / 16 = h.val; have := d.isLt; omega

/-- A negative node number counts from the end of the table: 50000 is added to it (both programs do this to a
    word before it names a row to read). -/
def normW (i : BitVec 32) : BitVec 32 := Scalar.select (IntOp.cmpi .slt i 0#32) (IntOp.addi i 50000#32) i

/-- The table row an integer word names: normalized, read signed, clamped into the 50000 rows. -/
def rowOf (i : BitVec 32) : Fin 50000 := ⟨min (normW i).toInt.toNat 49999, by omega⟩

/-- A row of `x` times the matrix `w`, plus the bias: entry `j` of the projection of row `r`. -/
def lin {R : Nat} (x : (⟨2, ![R, 128]⟩ : Shape).Idx → EReal) (w : (⟨2, ![128, 128]⟩ : Shape).Idx → EReal)
    (b : (⟨1, ![128]⟩ : Shape).Idx → EReal) (r : Fin R) (j : Fin 128) : EReal :=
  (∑ k : Fin 128, x (ix2 r k) * w (ix2 k j)) + b (ix1 j)

section
variable (node : (⟨2, ![50000, 128]⟩ : Shape).Idx → EReal) (edge : (⟨2, ![800000, 128]⟩ : Shape).Idx → EReal)
  (WQ : (⟨2, ![128, 128]⟩ : Shape).Idx → EReal) (bQ : (⟨1, ![128]⟩ : Shape).Idx → EReal)
  (WK : (⟨2, ![128, 128]⟩ : Shape).Idx → EReal) (bK : (⟨1, ![128]⟩ : Shape).Idx → EReal)
  (WV : (⟨2, ![128, 128]⟩ : Shape).Idx → EReal) (bV : (⟨1, ![128]⟩ : Shape).Idx → EReal)
  (WE : (⟨2, ![128, 128]⟩ : Shape).Idx → EReal) (bE : (⟨1, ![128]⟩ : Shape).Idx → EReal)
  (src dst : (⟨1, ![800000]⟩ : Shape).Idx → BitVec 32) (eps : EReal)

/-- Head `h` of edge `e`: the sum over the head's 16 entries of key (at the source row) times query (at the target
    row) times the edge's own projection. -/
def dotp (e : Fin 800000) (h : Fin 8) : EReal :=
  ∑ d : Fin 16, lin node WK bK (rowOf (src (ix1 e))) (hd h d) * lin node WQ bQ (rowOf (dst (ix1 e))) (hd h d)
    * lin edge WE bE e (hd h d)

/-- The score of head `h` of edge `e`. -/
def score (e : Fin 800000) (h : Fin 8) : EReal :=
  Ideal.exp (dotp node edge WQ bQ WK bK WE bE src dst e h * ((1 / 4 : ℝ) : EReal))

/-- What edge `e` carries at entry `f`: the source row's value there, scaled by the score of the entry's head. -/
def carried (e : Fin 800000) (f : Fin 128) : EReal :=
  lin node WV bV (rowOf (src (ix1 e))) f * score node edge WQ bQ WK bK WE bE src dst e (headOf f)

/-- Node `n`'s numerator at entry `f`: the carried entries of the edges whose target word reads `n`. -/
def numer (n : Fin 50000) (f : Fin 128) : EReal :=
  ∑ e : Fin 800000, if (dst (ix1 e)).toInt = (n.val : Int) then
    carried node edge WQ bQ WK bK WV bV WE bE src dst e f else 0

/-- Node `n`'s denominator at head `h`: the scores of the edges whose target word reads `n`. -/
def denom (n : Fin 50000) (h : Fin 8) : EReal :=
  ∑ e : Fin 800000, if (dst (ix1 e)).toInt = (n.val : Int) then score node edge WQ bQ WK bK WE bE src dst e h else 0

/-- The result at node `n`, head `h`, entry `d`. -/
def out (n : Fin 50000) (h : Fin 8) (d : Fin 16) : EReal :=
  Ideal.div (numer node edge WQ bQ WK bK WV bV WE bE src dst n (hd h d))
    (denom node edge WQ bQ WK bK WE bE src dst n h + eps)

/-- The result array. -/
def G : (⟨3, ![50000, 8, 16]⟩ : Shape).Idx → EReal :=
  fun i => out node edge WQ bQ WK bK WV bV WE bE src dst eps
    ⟨(i 0).val, (i 0).isLt⟩ ⟨(i 1).val, (i 1).isLt⟩ ⟨(i 2).val, (i 2).isLt⟩

theorem G_ix3 (n : Fin 50000) (h : Fin 8) (d : Fin 16) :
    G node edge WQ bQ WK bK WV bV WE bE src dst eps (ix3 n h d)
      = out node edge WQ bQ WK bK WV bV WE bE src dst eps n h d := rfl

end

end Cert.Hand.Spec

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.KTail.lean ====
/-
  The host operations after the edge kernel, as one function, read at an entry.

  The carried rows [800000, 128] and the scores [800000, 8] are each added into a zero table at the row the edge's
  raw target word names (a word outside the table adds nowhere); the 128 columns of the first table are then read as
  8 heads of 16, the second table gets the small constant added, and the first is divided by the second, each head's
  16 entries by that head's one denominator.
-/
import proofs.«143841_j59579786330257_1_alg».proof.Proof.Gen.KernelIdeal
import proofs.«143841_j59579786330257_1_alg».proof.Proof.Spec
import proofs.«143841_j59579786330257_1_alg».proof.Proof.LibScatterRows
import Idealize.ShloMosaic.PureOps.Ideal.Laws
import Idealize.ShloMosaic.Lib.ValueIdx
import Idealize.ShloMosaic.Lib.ValueLayout
import Idealize.ShloMosaic.Lib.Pipeline.Value

noncomputable section

namespace Cert.Hand.KVal

open Idealize.ShloMosaic Idealize.ShloMosaic.ValueIdx Cert.KernelIdeal Cert.KernelIdeal.Gen Cert.Hand
open scoped BigOperators

/-- The tail of the program: what the host does with the edge kernel's two results and the target words. -/
def tailK (wv : FVec Ideal S800000x128 .f32) (sc : FVec Ideal S800000x8 .f32) (dst : IVec S800000 32) :
    FVec Ideal S50000x8x16 .f32 :=
  Host.divf (F := Ideal)
    (shapeCast S50000x8x16
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 dst) wv)
      shapeCasts_S50000x128_S50000x8x16)
    (broadcastInDim S50000x8x16 ![0, 1, 2] bcast_S50000x8x1_S50000x8x16_0_1_2
      (addf
        (broadcastInDim S50000x8x1 ![0, 1] bcast_S50000x8_S50000x8x1_0_1
          (Host.scatterAdd (F := Ideal) scatter_S50000x8_S800000x1_S800000x8_1_0_0_1
            (broadcastInDim S50000x8 ![] bcast_S_S50000x8 (constant (F := Ideal) S_ .f32 0x00000000#32))
            (broadcastInDim S800000x1 ![0] bcast_S800000_S800000x1_0 dst) sc))
        (broadcastInDim S50000x8x1 ![] bcast_S_S50000x8x1 (constant (F := Ideal) S_ .f32 0x3089705F#32))))

/-- The host's division at an entry is the extended reals' division of the two entries. -/
theorem hostDivf_apply {s : Shape} {φ : FTy} (a b : FVec Ideal s φ) (i : s.Idx) :
    Host.divf (F := Ideal) a b i = Ideal.div (a i) (b i) := rfl

/-- A scalar spread over a whole array reads the scalar everywhere. -/
theorem splat_apply {t : Shape} (h : S_.BroadcastsInDim t (![] : Fin 0 → Fin t.rank)) (x : S_.Idx → EReal) (j : t.Idx) :
    broadcastInDim t ![] h x j = x ix0 :=
  broadcastInDim_apply _ h x j ix0 fun a => a.elim0

/-- The zero scalar spread over a whole array reads 0 everywhere. -/
theorem zeros_apply {t : Shape} (h : S_.BroadcastsInDim t (![] : Fin 0 → Fin t.rank)) (j : t.Idx) :
    broadcastInDim t ![] h (constant (F := Ideal) S_ .f32 0x00000000#32) j = (0 : EReal) :=
  (splat_apply h _ j).trans Ideal.ofBits_zero_f32

/-- The column of target words: row e holds word e. -/
theorem col_apply (dst : IVec S800000 32) (e : Fin 800000) :
    broadcastInDim S800000x1 ![0] bcast_S800000_S800000x1_0 dst (ix2 e (0 : Fin 1)) = dst (ix1 e) :=
  broadcastInDim_apply _ bcast_S800000_S800000x1_0 dst (ix2 e (0 : Fin 1)) (ix1 e) fun a => by
    match a with
    | ⟨0, _⟩ => show e.val = if (800000 : Nat) = 1 then 0 else e.val; rw [if_neg (by decide)]

/-- The carried rows added into a table, at (r, c): the table's entry plus the entries at column c of the rows whose
    word reads r. -/
theorem scatterWV_apply (x : FVec Ideal S50000x128 .f32) (idx : IVec S800000x1 32) (upd : FVec Ideal S800000x128 .f32)
    (r : Fin 50000) (c : Fin 128) :
    Host.scatterAdd (F := Ideal) scatter_S50000x128_S800000x1_S800000x128_1_0_0_1 x idx upd (ix2 r c)
      = x (ix2 r c) + ∑ e : Fin 800000, if (idx (ix2 e (0 : Fin 1))).toInt = (r.val : Int) then upd (ix2 e c) else 0 :=
  Cert.Lib.ScatterRows.scatterAdd_rows_apply (N := 50000) (R := 800000) (D := 128)
    scatter_S50000x128_S800000x1_S800000x128_1_0_0_1_wf x idx upd r c

/-- The scores added into a table, at (r, c). -/
theorem scatterSC_apply (x : FVec Ideal S50000x8 .f32) (idx : IVec S800000x1 32) (upd : FVec Ideal S800000x8 .f32)
    (r : Fin 50000) (c : Fin 8) :
    Host.scatterAdd (F := Ideal) scatter_S50000x8_S800000x1_S800000x8_1_0_0_1 x idx upd (ix2 r c)
      = x (ix2 r c) + ∑ e : Fin 800000, if (idx (ix2 e (0 : Fin 1))).toInt = (r.val : Int) then upd (ix2 e c) else 0 :=
  Cert.Lib.ScatterRows.scatterAdd_rows_apply (N := 50000) (R := 800000) (D := 8)
    scatter_S50000x8_S800000x1_S800000x8_1_0_0_1_wf x idx upd r c

/-- The tail at node n, head h, entry d: the sum of the carried entries 16 h + d of the edges whose target word reads
    n, divided by the sum of their scores at head h plus the small constant. -/
theorem tailK_apply (wv : FVec Ideal S800000x128 .f32) (sc : FVec Ideal S800000x8 .f32) (dst : IVec S800000 32)
    (n : Fin 50000) (h : Fin 8) (d : Fin 16) :
    tailK wv sc dst (ix3 n h d)
      = Ideal.div (∑ e : Fin 800000, if (dst (ix1 e)).toInt = (n.val : Int) then wv (ix2 e (Spec.hd h d)) else 0)
          ((∑ e : Fin 800000, if (dst (ix1 e)).toInt = (n.val : Int) then sc (ix2 e h) else 0)
            + Ideal.ofBits .f32 0x3089705F#32) := by
  unfold tailK
  refine (hostDivf_apply _ _ (ix3 n h d)).trans (congrArg₂ Ideal.div ?_ ?_)
  · -- the numerator: the first table read as heads of 16
    refine (shapeCast_apply _ shapeCasts_S50000x128_S50000x8x16 (ix3 n h d) (ix2 n (Spec.hd h d)) ?_).trans ?_
    · rw [Shape.rowMajor_val_two, Shape.rowMajor_val_three]
      show n.val * 128 + (16 * h.val + d.val) = (n.val * 8 + h.val) * 16 + d.val
      omega
    · refine (scatterWV_apply _ _ wv n (Spec.hd h d)).trans ?_
      refine (congrArg₂ (· + ·) (zeros_apply bcast_S_S50000x128 (ix2 n (Spec.hd h d)))
        (Finset.sum_congr rfl fun e _ => ?_)).trans (zero_add _)
      rw [col_apply]
  · -- the denominator: the second table's head h, plus the constant, the same for the head's 16 entries
    refine (broadcastInDim_apply _ bcast_S50000x8x1_S50000x8x16_0_1_2 _ (ix3 n h d) (ix3 n h (0 : Fin 1)) fun a => ?_).trans ?_
    · match a with
      | ⟨0, _⟩ => show n.val = if (50000 : Nat) = 1 then 0 else n.val; rw [if_neg (by decide)]
      | ⟨1, _⟩ => show h.val = if (8 : Nat) = 1 then 0 else h.val; rw [if_neg (by decide)]
      | ⟨2, _⟩ => show (0 : Nat) = if (1 : Nat) = 1 then 0 else d.val; rw [if_pos rfl]
    · refine (addf_apply _ _ (ix3 n h (0 : Fin 1))).trans (congrArg₂ (· + ·) ?_ ?_)
      · refine (broadcastInDim_apply _ bcast_S50000x8_S50000x8x1_0_1 _ (ix3 n h (0 : Fin 1)) (ix2 n h) fun a => ?_).trans ?_
        · match a with
          | ⟨0, _⟩ => show n.val = if (50000 : Nat) = 1 then 0 else n.val; rw [if_neg (by decide)]
          | ⟨1, _⟩ => show h.val = if (8 : Nat) = 1 then 0 else h.val; rw [if_neg (by decide)]
        · refine (scatterSC_apply _ _ sc n h).trans ?_
          refine (congrArg₂ (· + ·) (zeros_apply bcast_S_S50000x8 (ix2 n h))
            (Finset.sum_congr rfl fun e _ => ?_)).trans (zero_add _)
          rw [col_apply]
      · exact (splat_apply bcast_S_S50000x8x1 _ (ix3 n h (0 : Fin 1))).trans rfl

end Cert.Hand.KVal

end
-- ==== Proof.KI.Fn.lean ====
/-
  The idealized kernel program's result as ONE function of its twelve argument arrays, spelt exactly as the program
  composes it: the three weight matrices and the three biases concatenated; the fused projection of the node features;
  its three column slices (queries, keys, values); the edge projection; the index words normalized and laid as a
  column; the three row gathers; the two literal grouping tables; the two arrays the attention call leaves; and the
  tail that collects them per node and divides.
-/
import proofs.«143841_j59579786330257_1_alg».proof.Proof.KI.Out0
import proofs.«143841_j59579786330257_1_alg».proof.Proof.KI.Out1
import proofs.«143841_j59579786330257_1_alg».proof.Proof.KI.Out2
import proofs.«143841_j59579786330257_1_alg».proof.Proof.KTail

noncomputable section

namespace Cert.KernelIdeal.Hand

open Idealize.ShloMosaic Idealize.ShloMosaic.ValueIdx
open Cert.KernelIdeal Cert.KernelIdeal.Gen

/-- The three 128 x 128 weight matrices side by side. -/
def catW (x4 x6 x8 : S128x128.Idx → EReal) : S128x384.Idx → EReal :=
  concatenate S128x384 1 [⟨S128x128, x4⟩, ⟨S128x128, x6⟩, ⟨S128x128, x8⟩] concatenates_S128x128_S128x128_S128x128_S128x384_d1
/-- The three biases end to end. -/
def catB (x5 x7 x9 : S128.Idx → EReal) : S384.Idx → EReal :=
  concatenate S384 0 [⟨S128, x5⟩, ⟨S128, x7⟩, ⟨S128, x9⟩] concatenates_S128_S128_S128_S384_d0
/-- The fused projection of the node features: queries, keys and values side by side. -/
def qkv (x0 : S50000x128.Idx → EReal) (x4 : S128x128.Idx → EReal) (x5 : S128.Idx → EReal) (x6 : S128x128.Idx → EReal)
    (x7 : S128.Idx → EReal) (x8 : S128x128.Idx → EReal) (x9 : S128.Idx → EReal) : S50000x384.Idx → EReal :=
  linArr0 x0 (catW x4 x6 x8) (catB x5 x7 x9)
/-- Its three column slices. -/
def slQ (y : S50000x384.Idx → EReal) : S50000x128.Idx → EReal := extractStridedSlice S50000x128 ![0, 0] y slices_S50000x384_S50000x128_0_0
def slK (y : S50000x384.Idx → EReal) : S50000x128.Idx → EReal := extractStridedSlice S50000x128 ![0, 128] y slices_S50000x384_S50000x128_0_128
def slV (y : S50000x384.Idx → EReal) : S50000x128.Idx → EReal := extractStridedSlice S50000x128 ![0, 256] y slices_S50000x384_S50000x128_0_256
/-- The index words, a negative one raised by 50000, laid as a column. -/
def normCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The rows of a node table the index words name. -/
def gath (x : S50000x128.Idx → EReal) (s : IVec S800000 32) : S800000x128.Idx → EReal :=
  Host.gather gather_S50000x128_S800000x1_S800000x128_1_0_n_n_0_1_1128 x (normCol s)
/-- The two literal grouping tables. -/
def tabG : S128x8.Idx → EReal := fun i => Ideal.ofBits .f32 (lit0 (S128x8.rowMajor i))
def tabGT : S8x128.Idx → EReal := fun i => Ideal.ofBits .f32 (lit1 (S8x128.rowMajor i))

/-- The program's result as a function of its arguments. -/
def kernelFn (x0 : S50000x128.Idx → EReal) (x1 : S800000x128.Idx → EReal) (x2 x3 : IVec S800000 32)
    (x4 : S128x128.Idx → EReal) (x5 : S128.Idx → EReal) (x6 : S128x128.Idx → EReal) (x7 : S128.Idx → EReal)
    (x8 : S128x128.Idx → EReal) (x9 : S128.Idx → EReal) (x10 : S128x128.Idx → EReal) (x11 : S128.Idx → EReal) :
    S50000x8x16.Idx → EReal :=
  Cert.Hand.KVal.tailK
    (carArr (gath (slK (qkv x0 x4 x5 x6 x7 x8 x9)) x2) (gath (slQ (qkv x0 x4 x5 x6 x7 x8 x9)) x3) (linArr1 x1 x10 x11)
      (gath (slV (qkv x0 x4 x5 x6 x7 x8 x9)) x2) tabG tabGT)
    (scoreArr (gath (slK (qkv x0 x4 x5 x6 x7 x8 x9)) x2) (gath (slQ (qkv x0 x4 x5 x6 x7 x8 x9)) x3) (linArr1 x1 x10 x11) tabG)
    x3

end Cert.KernelIdeal.Hand

end
-- ==== Proof.LibNaryThree.lean ====
/-
  A host operation of three operands named by a literal family of references, read at its own result.
-/
import Idealize.ShloMosaic.Lib.StableHlo.Run

noncomputable section

namespace Idealize.ShloMosaic.StableHlo

variable {τ : Topo} {sig : RefSig} {Val : EltTy → Type} {x a b y : Ref sig .tc}

/-- The result of an operation of THREE operands given as a literal family `![x, a, b]` (a concatenation of three
    arrays), with each operand's contents read AT ITS OWN REFERENCE: `Fin.cons (F x) (Fin.cons (F a) (Fin.cons (F b) _))`
    in place of `fun k => F (![x, a, b] k)`. Under the binder the reference `![…] k` is no literal, so nothing more can
    be said of the operands' contents; after this rewriting each operand's contents is a term of its own, which further
    rewriting of a line of operations reaches. (The library states the same for four operands.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KI.Chain.lean ====
/-
  The idealized kernel program's run, read at the result: boundary by boundary, the buffers that feed the result hold the
  pieces of the composite function of the arguments — the concatenated weights and biases and the two literal tables
  after the first host stretch; the fused projection after the first pallas call; its three slices after the second
  stretch; the edge projection after the second call; the three gathered tables after the third stretch; the carried
  rows and the scores after the third call; and the result after the tail. A buffer that an item neither writes nor
  stages as an output keeps its contents through that item.
-/
import proofs.«143841_j59579786330257_1_alg».proof.Proof.KI.Run
import proofs.«143841_j59579786330257_1_alg».proof.Proof.KI.Fn
import proofs.«143841_j59579786330257_1_alg».proof.Proof.LibNaryThree

set_option maxRecDepth 16384

noncomputable section

namespace Cert.KernelIdeal.Hand

open Idealize.ShloMosaic Idealize.ShloMosaic.TcCoe Idealize.ShloMosaic.ValueIdx
open Idealize.SL Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- An argument array as launched. -/
abbrev arg (r : Ref sig .tc) : Buf (Elt Ideal) ((c : Thread nD τ).loc r) := m ((c : Thread nD τ).loc r)

/-! ## After the first host stretch -/

theorem W1_arg (r : Ref sig .tc) (h : r ∉ hostOps0_W) : W1 m ρ c (Proc.devRef .tc r) = arg m c r :=
  (W1_of m ρ c r h).trans rfl

theorem W1_v0 : W1 m ρ c (Proc.devRef .tc main_v0) = catW (arg m c main_arg4) (arg m c main_arg6) (arg m c main_arg8) := by
  show StableHlo.after hostOps0 (W0 m ρ c) (Proc.devRef .tc main_v0) = _
  simp only [hostOps0, StableHlo.after_cons, StableHlo.after_nil]
  rw [StableHlo.nary_result_ne]; rotate_left; decide
  rw [StableHlo.nary3_result]
  repeat (rw [StableHlo.nullary_result_ne]; rotate_left; decide)
  rfl

theorem W1_v1 : W1 m ρ c (Proc.devRef .tc main_v1) = catB (arg m c main_arg5) (arg m c main_arg7) (arg m c main_arg9) := by
  show StableHlo.after hostOps0 (W0 m ρ c) (Proc.devRef .tc main_v1) = _
  simp only [hostOps0, StableHlo.after_cons, StableHlo.after_nil]
  rw [StableHlo.nary3_result]
  repeat (first | (rw [StableHlo.nary_result_ne]; rotate_left; decide) | (rw [StableHlo.nullary_result_ne]; rotate_left; decide))
  rfl

theorem W1_cst : W1 m ρ c (Proc.devRef .tc main_cst) = tabG := by
  show StableHlo.after hostOps0 (W0 m ρ c) (Proc.devRef .tc main_cst) = _
  after_results
  rfl

theorem W1_cst0 : W1 m ρ c (Proc.devRef .tc main_cst_0) = tabGT := by
  show StableHlo.after hostOps0 (W0 m ρ c) (Proc.devRef .tc main_cst_0) = _
  after_results
  rfl

/-! ## After the first pallas call -/

theorem W2_v2 : W2 m ρ c (Proc.devRef .tc main_v2)
    = qkv (arg m c main_arg0) (arg m c main_arg4) (arg m c main_arg5) (arg m c main_arg6) (arg m c main_arg7) (arg m c main_arg8) (arg m c main_arg9) := by
  refine (W2_arr m ρ c 3).trans ((arr0_eq (U1 m ρ) c).trans ?_)
  show linArr0 (W1 m ρ c (Proc.devRef .tc main_arg0)) (W1 m ρ c (Proc.devRef .tc main_v0)) (W1 m ρ c (Proc.devRef .tc main_v1)) = _
  rw [W1_arg m ρ c main_arg0 (by decide), W1_v0, W1_v1]
  rfl

/-! ## After the second host stretch -/

theorem W3_v3 : W3 m ρ c (Proc.devRef .tc main_v3) = slQ (W2 m ρ c (Proc.devRef .tc main_v2)) := by
  show StableHlo.after hostOps1 (W2 m ρ c) (Proc.devRef .tc main_v3) = _
  after_results
  rfl
theorem W3_v4 : W3 m ρ c (Proc.devRef .tc main_v4) = slK (W2 m ρ c (Proc.devRef .tc main_v2)) := by
  show StableHlo.after hostOps1 (W2 m ρ c) (Proc.devRef .tc main_v4) = _
  after_results
  rfl
theorem W3_v5 : W3 m ρ c (Proc.devRef .tc main_v5) = slV (W2 m ρ c (Proc.devRef .tc main_v2)) := by
  show StableHlo.after hostOps1 (W2 m ρ c) (Proc.devRef .tc main_v5) = _
  after_results
  rfl

/-- An argument array is still as launched when the second pallas call is entered. -/
theorem W3_arg (r : Ref sig .tc) (h0 : r ∉ hostOps0_W) (h1 : r ∉ hostOps1_W) (hr : ∀ w, Pipeline.arrRef spec0 w ≠ r) :
    W3 m ρ c (Proc.devRef .tc r) = arg m c r :=
  (W3_of m ρ c r h1).trans <| (W2_of_ne m ρ c r hr).trans <| W1_arg m ρ c r h0

/-! ## After the second pallas call -/

theorem W4_v6 : W4 m ρ c (Proc.devRef .tc main_v6) = linArr1 (arg m c main_arg1) (arg m c main_arg10) (arg m c main_arg11) := by
  refine (W4_arr m ρ c 3).trans ((arr1_eq (U3 m ρ) c).trans ?_)
  show linArr1 (W3 m ρ c (Proc.devRef .tc main_arg1)) (W3 m ρ c (Proc.devRef .tc main_arg10)) (W3 m ρ c (Proc.devRef .tc main_arg11)) = _
  rw [W3_arg m ρ c main_arg1 (by decide) (by decide) (by decide), W3_arg m ρ c main_arg10 (by decide) (by decide) (by decide),
    W3_arg m ρ c main_arg11 (by decide) (by decide) (by decide)]

/-- A buffer the second pallas call does not stage keeps what the second host stretch left. -/
theorem W4_keep (r : Ref sig .tc) (hr : ∀ w, Pipeline.arrRef spec1 w ≠ r) : W4 m ρ c (Proc.devRef .tc r) = W3 m ρ c (Proc.devRef .tc r) :=
  W4_of_ne m ρ c r hr

/-- The index words are still as launched when the third host stretch runs. -/
theorem W4_arg (r : Ref sig .tc) (h0 : r ∉ hostOps0_W) (h1 : r ∉ hostOps1_W) (hr0 : ∀ w, Pipeline.arrRef spec0 w ≠ r)
    (hr1 : ∀ w, Pipeline.arrRef spec1 w ≠ r) : W4 m ρ c (Proc.devRef .tc r) = arg m c r :=
  (W4_of_ne m ρ c r hr1).trans (W3_arg m ρ c r h0 h1 hr0)

/-- The literal tables are still in place when the third pallas call is entered. -/
theorem W5_cst : W5 m ρ c (Proc.devRef .tc main_cst) = tabG :=
  (W5_of m ρ c main_cst (by decide)).trans <| (W4_of_ne m ρ c main_cst (by decide)).trans <| (W3_of m ρ c main_cst (by decide)).trans <|
    (W2_of_ne m ρ c main_cst (by decide)).trans (W1_cst m ρ c)
theorem W5_cst0 : W5 m ρ c (Proc.devRef .tc main_cst_0) = tabGT :=
  (W5_of m ρ c main_cst_0 (by decide)).trans <| (W4_of_ne m ρ c main_cst_0 (by decide)).trans <| (W3_of m ρ c main_cst_0 (by decide)).trans <|
    (W2_of_ne m ρ c main_cst_0 (by decide)).trans (W1_cst0 m ρ c)

/-! ## After the third host stretch -/

theorem W5_v13 : W5 m ρ c (Proc.devRef .tc main_v13) = gath (W4 m ρ c (Proc.devRef .tc main_v4)) (W4 m ρ c (Proc.devRef .tc main_arg2)) := by
  show StableHlo.after hostOps2 (W4 m ρ c) (Proc.devRef .tc main_v13) = _
  after_results
  rfl
theorem W5_v20 : W5 m ρ c (Proc.devRef .tc main_v20) = gath (W4 m ρ c (Proc.devRef .tc main_v3)) (W4 m ρ c (Proc.devRef .tc main_arg3)) := by
  show StableHlo.after hostOps2 (W4 m ρ c) (Proc.devRef .tc main_v20) = _
  after_results
  rfl
theorem W5_v27 : W5 m ρ c (Proc.devRef .tc main_v27) = gath (W4 m ρ c (Proc.devRef .tc main_v5)) (W4 m ρ c (Proc.devRef .tc main_arg2)) := by
  show StableHlo.after hostOps2 (W4 m ρ c) (Proc.devRef .tc main_v27) = _
  after_results
  rfl
theorem W5_v6 : W5 m ρ c (Proc.devRef .tc main_v6) = W4 m ρ c (Proc.devRef .tc main_v6) := W5_of m ρ c main_v6 (by decide)

/-! ## After the third pallas call -/

theorem W6_v28_1 : W6 m ρ c (Proc.devRef .tc main_v28_1)
    = scoreArr (W5 m ρ c (Proc.devRef .tc main_v13)) (W5 m ρ c (Proc.devRef .tc main_v20)) (W5 m ρ c (Proc.devRef .tc main_v6))
        (W5 m ρ c (Proc.devRef .tc main_cst)) :=
  (W6_arr m ρ c 7).trans ((arr2_7_eq (U5 m ρ) c).trans rfl)

theorem W6_v28_0 : W6 m ρ c (Proc.devRef .tc main_v28_0)
    = carArr (W5 m ρ c (Proc.devRef .tc main_v13)) (W5 m ρ c (Proc.devRef .tc main_v20)) (W5 m ρ c (Proc.devRef .tc main_v6))
        (W5 m ρ c (Proc.devRef .tc main_v27)) (W5 m ρ c (Proc.devRef .tc main_cst)) (W5 m ρ c (Proc.devRef .tc main_cst_0)) :=
  (W6_arr m ρ c 6).trans ((arr2_6_eq (U5 m ρ) c).trans rfl)

/-- The target words are still as launched when the tail runs. -/
theorem W6_arg3 : W6 m ρ c (Proc.devRef .tc main_arg3) = arg m c main_arg3 :=
  (W6_of_ne m ρ c main_arg3 (by decide)).trans <| (W5_of m ρ c main_arg3 (by decide)).trans <|
    W4_arg m ρ c main_arg3 (by decide) (by decide) (by decide) (by decide)

/-! ## After the tail -/

theorem W7_v40 : W7 m ρ c (Proc.devRef .tc main_v40)
    = Cert.Hand.KVal.tailK (W6 m ρ c (Proc.devRef .tc main_v28_0)) (W6 m ρ c (Proc.devRef .tc main_v28_1)) (W6 m ρ c (Proc.devRef .tc main_arg3)) := by
  show StableHlo.after hostOps3 (W6 m ρ c) (Proc.devRef .tc main_v40) = _
  after_results
  rfl

/-- THE RESULT: the last boundary's contents at the result buffer is the composite function of the arguments as launched. -/
theorem result_eq : W7 m ρ c (Proc.devRef .tc main_v40)
    = kernelFn (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11) := by
  rw [W7_v40, W6_v28_0, W6_v28_1, W6_arg3, W5_v13, W5_v20, W5_v27, W5_v6, W5_cst, W5_cst0, W4_v6,
    W4_keep m ρ c main_v3 (by decide), W4_keep m ρ c main_v4 (by decide), W4_keep m ρ c main_v5 (by decide),
    W3_v3, W3_v4, W3_v5, W2_v2,
    W4_arg m ρ c main_arg2 (by decide) (by decide) (by decide) (by decide),
    W4_arg m ρ c main_arg3 (by decide) (by decide) (by decide) (by decide)]
  rfl

end Cert.KernelIdeal.Hand

end
-- ==== Proof.KTables.lean ====
/-
  The two grouping tables of the edge kernel, and the two sums they make.

  The 128 entries of a feature row are 8 heads of 16 consecutive entries. The table `g : [128, 8]` holds 1 at (f, h)
  when entry f lies in head h and 0 elsewhere; `gt : [8, 128]` is its transpose. A product of a row with `g` therefore
  sums the row's entries head by head, and a product of a row of 8 head values with `gt` copies each head's value to
  the head's 16 entries. Neither fact needs finiteness: x * 0 = 0 and x * 1 = x hold for every extended real.
-/
import proofs.«143841_j59579786330257_1_alg».proof.KernelIdeal
import proofs.«143841_j59579786330257_1_alg».proof.Proof.Spec
import Idealize.ShloMosaic.PureOps.Ideal.Laws
import Idealize.ShloMosaic.Lib.ValueIdx

noncomputable section

namespace Cert.Hand.KVal

open Idealize.ShloMosaic Idealize.ShloMosaic.ValueIdx Cert.KernelIdeal Cert.Hand
open scoped BigOperators

/-! ## The words of the tables -/

/-- Row-major entry 8 f + h of the first table is the word of 1.0 when f / 16 = h and the zero word otherwise. -/
theorem lit0t_word : ∀ (f : Fin 128) (h : Fin 8),
    lit0t (8 * f.val + h.val) = if f.val / 16 = h.val then 0x3F800000#32 else 0x00000000#32 := by
  decide +kernel

/-- Row-major entry 128 h + f of the second table is the word of 1.0 when f / 16 = h and the zero word otherwise. -/
theorem lit1t_word : ∀ (h : Fin 8) (f : Fin 128),
    lit1t (128 * h.val + f.val) = if f.val / 16 = h.val then 0x3F800000#32 else 0x00000000#32 := by
  decide +kernel

/-- The word 0x3F800000 is the float 1.0. -/
theorem one_word : (Ideal.ofBits .f32 0x3F800000#32 : EReal) = 1 := by
  simp [Ideal.ofBits, Ideal.ieee, -EReal.coe_mul]; norm_num

/-- The word 0x3E800000 is the float 0.25. -/
theorem quarter : (Ideal.ofBits .f32 0x3E800000#32 : EReal) = ((1 / 4 : ℝ) : EReal) := by
  simp [Ideal.ofBits, Ideal.ieee, -EReal.coe_mul]; norm_num

/-- A word that is 1.0 or 0.0 according to a condition reads as the extended real 1 or 0. -/
theorem ofBits_ite (c : Prop) [Decidable c] :
    (Ideal.ofBits .f32 (if c then 0x3F800000#32 else 0x00000000#32) : EReal) = if c then 1 else 0 := by
  by_cases e : c
  · rw [if_pos e, if_pos e, one_word]
  · rw [if_neg e, if_neg e, Ideal.ofBits_zero_f32]

/-- Entry (f, h) of the table `g`: 1 when entry f lies in head h, else 0. -/
theorem g_apply (f : Fin 128) (h : Fin 8) :
    (Ideal.ofBits .f32 (lit0 (S128x8.rowMajor (ix2 f h))) : EReal) = if Spec.headOf f = h then 1 else 0 := by
  have hv : (S128x8.rowMajor (ix2 f h)).val = 8 * f.val + h.val := by
    rw [Shape.rowMajor_val_two]; show f.val * 8 + h.val = _; omega
  have hw : lit0 (S128x8.rowMajor (ix2 f h)) = if f.val / 16 = h.val then 0x3F800000#32 else 0x00000000#32 := by
    show lit0t (S128x8.rowMajor (ix2 f h)).val = _
    rw [hv]; exact lit0t_word f h
  rw [hw, ofBits_ite]
  exact if_congr ⟨fun e => Fin.ext e, fun e => congrArg Fin.val e⟩ rfl rfl

/-- Entry (h, f) of the table `gt`: 1 when entry f lies in head h, else 0. -/
theorem gt_apply (h : Fin 8) (f : Fin 128) :
    (Ideal.ofBits .f32 (lit1 (S8x128.rowMajor (ix2 h f))) : EReal) = if Spec.headOf f = h then 1 else 0 := by
  have hv : (S8x128.rowMajor (ix2 h f)).val = 128 * h.val + f.val := by
    rw [Shape.rowMajor_val_two]; show h.val * 128 + f.val = _; omega
  have hw : lit1 (S8x128.rowMajor (ix2 h f)) = if f.val / 16 = h.val then 0x3F800000#32 else 0x00000000#32 := by
    show lit1t (S8x128.rowMajor (ix2 h f)).val = _
    rw [hv]; exact lit1t_word h f
  rw [hw, ofBits_ite]
  exact if_congr ⟨fun e => Fin.ext e, fun e => congrArg Fin.val e⟩ rfl rfl

/-! ## The two sums -/

/-- The 128 entries as 8 heads of 16: (h, d) is entry 16 h + d. -/
def headEquiv : Fin 8 × Fin 16 ≃ Fin 128 where
  toFun p := Spec.hd p.1 p.2
  invFun f := (Spec.headOf f, ⟨f.val % 16, Nat.mod_lt _ (by decide)⟩)
  left_inv := fun ⟨h, d⟩ => by
    refine Prod.ext (Spec.headOf_hd h d) (Fin.ext ?_)
    show (16 * h.val + d.val) % 16 = d.val
    have := d.isLt; omega
  right_inv := fun f => by
    apply Fin.ext
    show 16 * (f.val / 16) + f.val % 16 = f.val
    omega

/-- A row times the table `g`, at head h: the sum of the row's 16 entries of that head. -/
theorem sum_heads (x : Fin 128 → EReal) (h : Fin 8) :
    (∑ f : Fin 128, x f * (if Spec.headOf f = h then (1 : EReal) else 0)) = ∑ d : Fin 16, x (Spec.hd h d) := by
  have inner : ∀ h' : Fin 8,
      (∑ d : Fin 16, x (Spec.hd h' d) * (if Spec.headOf (Spec.hd h' d) = h then (1 : EReal) else 0))
        = if h' = h then ∑ d : Fin 16, x (Spec.hd h' d) else 0 := fun h' => by
    by_cases e : h' = h
    · rw [if_pos e]
      refine Finset.sum_congr rfl fun d _ => ?_
      rw [Spec.headOf_hd, if_pos e, mul_one]
    · rw [if_neg e]
      refine Finset.sum_eq_zero fun d _ => ?_
      rw [Spec.headOf_hd, if_neg e, mul_zero]
  calc (∑ f : Fin 128, x f * (if Spec.headOf f = h then (1 : EReal) else 0))
      = ∑ p : Fin 8 × Fin 16, x (Spec.hd p.1 p.2) * (if Spec.headOf (Spec.hd p.1 p.2) = h then (1 : EReal) else 0) :=
        (Equiv.sum_comp headEquiv (fun f => x f * (if Spec.headOf f = h then (1 : EReal) else 0))).symm
    _ = ∑ h' : Fin 8, ∑ d : Fin 16, x (Spec.hd h' d) * (if Spec.headOf (Spec.hd h' d) = h then (1 : EReal) else 0) :=
        Fintype.sum_prod_type _
    _ = ∑ h' : Fin 8, if h' = h then ∑ d : Fin 16, x (Spec.hd h' d) else 0 := Finset.sum_congr rfl fun h' _ => inner h'
    _ = ∑ d : Fin 16, x (Spec.hd h d) :=
        (Finset.sum_ite_eq' Finset.univ h fun h' => ∑ d : Fin 16, x (Spec.hd h' d)).trans (if_pos (Finset.mem_univ h))

/-- A row of 8 head values times the table `gt`, at entry f: the value of the head entry f lies in. -/
theorem pick_head (s : Fin 8 → EReal) (f : Fin 128) :
    (∑ h : Fin 8, s h * (if Spec.headOf f = h then (1 : EReal) else 0)) = s (Spec.headOf f) := by
  have e : ∀ h : Fin 8, s h * (if Spec.headOf f = h then (1 : EReal) else 0) = if Spec.headOf f = h then s h else 0 :=
    fun h => by
      by_cases c : Spec.headOf f = h
      · rw [if_pos c, if_pos c, mul_one]
      · rw [if_neg c, if_neg c, mul_zero]
  exact (Finset.sum_congr rfl fun h _ => e h).trans
    ((Finset.sum_ite_eq Finset.univ (Spec.headOf f) s).trans (if_pos (Finset.mem_univ _)))

end Cert.Hand.KVal

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.KGather.lean ====
/-
  The three row gathers before the edge kernel, read at an entry.

  Each edge reads a whole row of a node table at the row its source or target word names. The word is first
  normalized (a negative word has 50000 added), then laid as a one-column array of row numbers; the gather reads each
  row number signed and clamps it into the table's 50000 rows. So entry (e, f) of the gathered array is the table's
  entry at row `Spec.rowOf (word e)` and column f.
-/
import proofs.«143841_j59579786330257_1_alg».proof.Proof.Gen.KernelIdeal
import proofs.«143841_j59579786330257_1_alg».proof.Proof.Spec
import proofs.«143841_j59579786330257_1_alg».proof.Proof.LibGatherRows
import Idealize.ShloMosaic.Lib.ValueIdx
import Idealize.ShloMosaic.Lib.ValueLayout
import Idealize.ShloMosaic.Lib.Pipeline.Value

noncomputable section

namespace Cert.Hand.KVal

open Idealize.ShloMosaic Idealize.ShloMosaic.ValueIdx Cert.KernelIdeal Cert.KernelIdeal.Gen Cert.Hand

/-- The gather at (e, f): the table at the row the index column holds for e, read signed and clamped into the 50000
    rows, and column f. -/
theorem gatherK_apply {α : Type} (x : S50000x128.Idx → α) (idx : IVec S800000x1 32) (e : Fin 800000) (f : Fin 128) :
    Host.gather gather_S50000x128_S800000x1_S800000x128_1_0_n_n_0_1_1128 x idx (ix2 e f)
      = x (ix2 (⟨min (idx (ix2 e (0 : Fin 1))).toInt.toNat 49999, by omega⟩ : Fin 50000) f) := by
  refine (Cert.Lib.GatherRows.gather_rows_apply (N := 50000) (R := 800000) (D := 128) (by decide)
    gather_S50000x128_S800000x1_S800000x128_1_0_n_n_0_1_1128_wf x idx (ix2 e f)).trans ?_
  have hi : Cert.Lib.GatherRows.rowsIdx (ix2 e f) = ix2 e (0 : Fin 1) := funext fun a => Fin.ext (by
    match a with
    | ⟨0, _⟩ => rfl
    | ⟨1, _⟩ => rfl)
  refine congrArg x (funext fun a => Fin.ext ?_)
  match a with
  | ⟨0, _⟩ =>
    show min (idx (Cert.Lib.GatherRows.rowsIdx (ix2 e f))).toInt.toNat (50000 - 1)
      = min (idx (ix2 e (0 : Fin 1))).toInt.toNat 49999
    rw [hi]
  | ⟨1, _⟩ => rfl

/-- An integer scalar spread over a whole array reads the scalar everywhere. -/
theorem splatI_apply {t : Shape} (h : S_.BroadcastsInDim t (![] : Fin 0 → Fin t.rank)) (x : IVec S_ 32) (j : t.Idx) :
    broadcastInDim t ![] h x j = x ix0 :=
  broadcastInDim_apply _ h x j ix0 fun a => a.elim0

/-- A vector of words laid as one column: row e holds word e. -/
theorem wordCol_apply (s : IVec S800000 32) (e : Fin 800000) :
    broadcastInDim S800000x1 ![0] bcast_S800000_S800000x1_0 s (ix2 e (0 : Fin 1)) = s (ix1 e) :=
  broadcastInDim_apply _ bcast_S800000_S800000x1_0 s (ix2 e (0 : Fin 1)) (ix1 e) fun a => by
    match a with
    | ⟨0, _⟩ => show e.val = if (800000 : Nat) = 1 then 0 else e.val; rw [if_neg (by decide)]

/-- The column of row numbers the program builds from a vector of words: row e holds the normalized word e. -/
theorem normCol_apply (s : IVec S800000 32) (e : Fin 800000) :
    broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s) (ix2 e (0 : Fin 1))
      = Spec.normW (s (ix1 e)) := by
  refine (wordCol_apply _ e).trans ?_
  show Scalar.select
      (IntOp.cmpi .slt (s (ix1 e)) (broadcastInDim S800000 ![] bcast_S_S800000 (constantI S_ 32 0#32) (ix1 e)))
      (IntOp.addi (s (ix1 e)) (broadcastInDim S800000 ![] bcast_S_S800000 (constantI S_ 32 50000#32) (ix1 e)))
      (s (ix1 e)) = _
  rw [splatI_apply, splatI_apply]
  rfl

/-- A gathered row: entry (e, f) of the gather at the program's column of row numbers is the table at row
    `Spec.rowOf (word e)` and column f. -/
theorem gatherRow_apply {α : Type} (x : S50000x128.Idx → α) (s : IVec S800000 32) (e : Fin 800000) (f : Fin 128) :
    Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)) (ix2 e f)
      = x (ix2 (Spec.rowOf (s (ix1 e))) f) := by
  refine (gatherK_apply x _ e f).trans ?_
  refine congrArg (fun r : Fin 50000 => x (ix2 r f)) (Fin.ext ?_)
  show min (_ : BitVec 32).toInt.toNat 49999 = min (Spec.normW (s (ix1 e))).toInt.toNat 49999
  rw [normCol_apply]

end Cert.Hand.KVal

end
-- ==== Proof.KLayout.lean ====
/-
  The layout operations around the node projection, read at an entry.

  Before it, the three 128 x 128 weight matrices are laid side by side as one 128 x 384 matrix and the three bias
  vectors end to end as one vector of 384: column (or position) j of the first part, 128 + j of the second, 256 + j
  of the third. After it, the 384 columns of the projected rows are cut back into three blocks of 128 columns.
-/
import proofs.«143841_j59579786330257_1_alg».proof.Proof.Gen.KernelIdeal
import Idealize.ShloMosaic.Lib.ValueIdx
import Idealize.ShloMosaic.Lib.ValueLayout
import Idealize.ShloMosaic.Lib.Pipeline.Value

noncomputable section

namespace Cert.Hand.KVal

open Idealize.ShloMosaic Idealize.ShloMosaic.ValueIdx Cert.KernelIdeal Cert.KernelIdeal.Gen Cert.Hand

variable {α : Type}

/-! ## The three matrices side by side -/

/-- Column j < 128 of the joined matrix is column j of the first matrix. -/
theorem catW_first (a b c : S128x128.Idx → α) (k j : Fin 128) :
    concatenate S128x384 1 [⟨S128x128, a⟩, ⟨S128x128, b⟩, ⟨S128x128, c⟩]
        concatenates_S128x128_S128x128_S128x128_S128x384_d1 (ix2 k (⟨j.val, by omega⟩ : Fin 384))
      = a (ix2 k j) :=
  concatenate_apply_piece (t := S128x384) (1 : Fin 2) [⟨S128x128, a⟩, ⟨S128x128, b⟩, ⟨S128x128, c⟩]
    concatenates_S128x128_S128x128_S128x128_S128x384_d1 (ix2 k (⟨j.val, by omega⟩ : Fin 384))
    0 (by show (0 : Nat) < 3; decide) S128x128 a rfl rfl 0 rfl (ix2 k j)
    (fun b' hb => by
      match b' with
      | ⟨0, _⟩ => rfl
      | ⟨1, _⟩ => exact absurd (Fin.ext rfl) hb)
    (Nat.zero_add _)

/-- Column 128 + j of the joined matrix is column j of the second matrix. -/
theorem catW_second (a b c : S128x128.Idx → α) (k j : Fin 128) :
    concatenate S128x384 1 [⟨S128x128, a⟩, ⟨S128x128, b⟩, ⟨S128x128, c⟩]
        concatenates_S128x128_S128x128_S128x128_S128x384_d1 (ix2 k (⟨128 + j.val, by omega⟩ : Fin 384))
      = b (ix2 k j) :=
  concatenate_apply_piece (t := S128x384) (1 : Fin 2) [⟨S128x128, a⟩, ⟨S128x128, b⟩, ⟨S128x128, c⟩]
    concatenates_S128x128_S128x128_S128x128_S128x384_d1 (ix2 k (⟨128 + j.val, by omega⟩ : Fin 384))
    1 (by show (1 : Nat) < 3; decide) S128x128 b rfl rfl 128 rfl (ix2 k j)
    (fun b' hb => by
      match b' with
      | ⟨0, _⟩ => rfl
      | ⟨1, _⟩ => exact absurd (Fin.ext rfl) hb)
    rfl

/-- Column 256 + j of the joined matrix is column j of the third matrix. -/
theorem catW_third (a b c : S128x128.Idx → α) (k j : Fin 128) :
    concatenate S128x384 1 [⟨S128x128, a⟩, ⟨S128x128, b⟩, ⟨S128x128, c⟩]
        concatenates_S128x128_S128x128_S128x128_S128x384_d1 (ix2 k (⟨256 + j.val, by omega⟩ : Fin 384))
      = c (ix2 k j) :=
  concatenate_apply_piece (t := S128x384) (1 : Fin 2) [⟨S128x128, a⟩, ⟨S128x128, b⟩, ⟨S128x128, c⟩]
    concatenates_S128x128_S128x128_S128x128_S128x384_d1 (ix2 k (⟨256 + j.val, by omega⟩ : Fin 384))
    2 (by show (2 : Nat) < 3; decide) S128x128 c rfl rfl 256 rfl (ix2 k j)
    (fun b' hb => by
      match b' with
      | ⟨0, _⟩ => rfl
      | ⟨1, _⟩ => exact absurd (Fin.ext rfl) hb)
    rfl

/-! ## The three vectors end to end -/

/-- Position j < 128 of the joined vector is position j of the first vector. -/
theorem catB_first (a b c : S128.Idx → α) (j : Fin 128) :
    concatenate S384 0 [⟨S128, a⟩, ⟨S128, b⟩, ⟨S128, c⟩] concatenates_S128_S128_S128_S384_d0
        (ix1 (⟨j.val, by omega⟩ : Fin 384))
      = a (ix1 j) :=
  concatenate_apply_piece (t := S384) (0 : Fin 1) [⟨S128, a⟩, ⟨S128, b⟩, ⟨S128, c⟩] concatenates_S128_S128_S128_S384_d0
    (ix1 (⟨j.val, by omega⟩ : Fin 384)) 0 (by show (0 : Nat) < 3; decide) S128 a rfl rfl 0 rfl (ix1 j)
    (fun b' hb => absurd (Subsingleton.elim _ _) hb) (Nat.zero_add _)

/-- Position 128 + j of the joined vector is position j of the second vector. -/
theorem catB_second (a b c : S128.Idx → α) (j : Fin 128) :
    concatenate S384 0 [⟨S128, a⟩, ⟨S128, b⟩, ⟨S128, c⟩] concatenates_S128_S128_S128_S384_d0
        (ix1 (⟨128 + j.val, by omega⟩ : Fin 384))
      = b (ix1 j) :=
  concatenate_apply_piece (t := S384) (0 : Fin 1) [⟨S128, a⟩, ⟨S128, b⟩, ⟨S128, c⟩] concatenates_S128_S128_S128_S384_d0
    (ix1 (⟨128 + j.val, by omega⟩ : Fin 384)) 1 (by show (1 : Nat) < 3; decide) S128 b rfl rfl 128 rfl (ix1 j)
    (fun b' hb => absurd (Subsingleton.elim _ _) hb) rfl

/-- Position 256 + j of the joined vector is position j of the third vector. -/
theorem catB_third (a b c : S128.Idx → α) (j : Fin 128) :
    concatenate S384 0 [⟨S128, a⟩, ⟨S128, b⟩, ⟨S128, c⟩] concatenates_S128_S128_S128_S384_d0
        (ix1 (⟨256 + j.val, by omega⟩ : Fin 384))
      = c (ix1 j) :=
  concatenate_apply_piece (t := S384) (0 : Fin 1) [⟨S128, a⟩, ⟨S128, b⟩, ⟨S128, c⟩] concatenates_S128_S128_S128_S384_d0
    (ix1 (⟨256 + j.val, by omega⟩ : Fin 384)) 2 (by show (2 : Nat) < 3; decide) S128 c rfl rfl 256 rfl (ix1 j)
    (fun b' hb => absurd (Subsingleton.elim _ _) hb) rfl

/-! ## The projected rows cut into three blocks of columns -/

/-- The first block: column j of it is column j of the 384. -/
theorem sliceQ_apply (x : S50000x384.Idx → α) (n : Fin 50000) (j : Fin 128) :
    extractStridedSlice S50000x128 ![0, 0] x slices_S50000x384_S50000x128_0_0 (ix2 n j)
      = x (ix2 n (⟨j.val, by omega⟩ : Fin 384)) :=
  slice2_axis1_apply 0 x slices_S50000x384_S50000x128_0_0 n j (⟨j.val, by omega⟩ : Fin 384) (Nat.zero_add _).symm

/-- The second block: column j of it is column 128 + j of the 384. -/
theorem sliceK_apply (x : S50000x384.Idx → α) (n : Fin 50000) (j : Fin 128) :
    extractStridedSlice S50000x128 ![0, 128] x slices_S50000x384_S50000x128_0_128 (ix2 n j)
      = x (ix2 n (⟨128 + j.val, by omega⟩ : Fin 384)) :=
  slice2_axis1_apply 128 x slices_S50000x384_S50000x128_0_128 n j (⟨128 + j.val, by omega⟩ : Fin 384) rfl

/-- The third block: column j of it is column 256 + j of the 384. -/
theorem sliceV_apply (x : S50000x384.Idx → α) (n : Fin 50000) (j : Fin 128) :
    extractStridedSlice S50000x128 ![0, 256] x slices_S50000x384_S50000x128_0_256 (ix2 n j)
      = x (ix2 n (⟨256 + j.val, by omega⟩ : Fin 384)) :=
  slice2_axis1_apply 256 x slices_S50000x384_S50000x128_0_256 n j (⟨256 + j.val, by omega⟩ : Fin 384) rfl

end Cert.Hand.KVal

end
-- ==== Proof.KI.Bridge.lean ====
/-
  The program's result is the specified function.

  Read entry by entry, each array the program builds is what the specification names:
  * a gathered row of a column block of the fused projection is the projection, by that block's own weight matrix
    and bias, of the node row the edge's word names;
  * the edge projection is the projection of the edge's own row;
  * the product with the first grouping table sums a head's 16 entries, so the score array is the specified score;
  * the product with the second grouping table copies each head's score to the head's 16 entries, so the carried array
    is the specified carried row;
  * the tail collects both per target node and divides.
  No step needs finiteness: only x * 1 = x, x * 0 = 0 and re-indexing of finite sums are used.
-/
import proofs.«143841_j59579786330257_1_alg».proof.Proof.KI.Fn
import proofs.«143841_j59579786330257_1_alg».proof.Proof.KTables
import proofs.«143841_j59579786330257_1_alg».proof.Proof.KGather
import proofs.«143841_j59579786330257_1_alg».proof.Proof.KLayout
import proofs.«143841_j59579786330257_1_alg».proof.Proof.KTail

noncomputable section

namespace Cert.KernelIdeal.Hand

open Idealize.ShloMosaic Idealize.ShloMosaic.ValueIdx
open Cert.KernelIdeal Cert.KernelIdeal.Gen Cert.Hand
open scoped BigOperators

/-! ## The arrays at an entry given by its coordinates -/

theorem linArr0_apply (x : S50000x128.Idx → EReal) (w : S128x384.Idx → EReal) (b : S384.Idx → EReal)
    (n : Fin 50000) (q : Fin 384) :
    linArr0 x w b (ix2 n q) = (∑ k : Fin 128, x (ix2 n k) * w (ix2 k q)) + b (ix1 q) := rfl

theorem linArr1_apply (x : S800000x128.Idx → EReal) (w : S128x128.Idx → EReal) (b : S128.Idx → EReal)
    (e : Fin 800000) (q : Fin 128) :
    linArr1 x w b (ix2 e q) = (∑ k : Fin 128, x (ix2 e k) * w (ix2 k q)) + b (ix1 q) := rfl

theorem scoreArr_apply (k q x : S800000x128.Idx → EReal) (g : S128x8.Idx → EReal) (e : Fin 800000) (h : Fin 8) :
    scoreArr k q x g (ix2 e h)
      = Ideal.exp ((∑ f : Fin 128, (k (ix2 e f) * q (ix2 e f) * x (ix2 e f)) * g (ix2 f h))
          * Ideal.ofBits .f32 0x3E800000#32) := rfl

theorem carArr_apply (k q x v : S800000x128.Idx → EReal) (g : S128x8.Idx → EReal) (gt : S8x128.Idx → EReal)
    (e : Fin 800000) (f : Fin 128) :
    carArr k q x v g gt (ix2 e f) = v (ix2 e f) * ∑ h : Fin 8, scoreArr k q x g (ix2 e h) * gt (ix2 h f) := rfl

/-! ## The two grouping tables under a sum -/

/-- A row times the first table, at head h: the sum of the row's 16 entries of that head. -/
theorem group_sum (P : Fin 128 → EReal) (h : Fin 8) :
    (∑ f : Fin 128, P f * tabG (ix2 f h)) = ∑ d : Fin 16, P (Spec.hd h d) :=
  (Finset.sum_congr rfl fun f _ => congrArg (P f * ·) (KVal.g_apply f h)).trans (KVal.sum_heads P h)

/-- A row of 8 head values times the second table, at entry f: the value of the head entry f lies in. -/
theorem spread_head (s : Fin 8 → EReal) (f : Fin 128) :
    (∑ h : Fin 8, s h * tabGT (ix2 h f)) = s (Spec.headOf f) :=
  (Finset.sum_congr rfl fun h _ => congrArg (s h * ·) (KVal.gt_apply h f)).trans (KVal.pick_head s f)

/-! ## The projections -/

section
variable (x0 : S50000x128.Idx → EReal) (x1 : S800000x128.Idx → EReal) (x2 x3 : IVec S800000 32)
  (x4 : S128x128.Idx → EReal) (x5 : S128.Idx → EReal) (x6 : S128x128.Idx → EReal) (x7 : S128.Idx → EReal)
  (x8 : S128x128.Idx → EReal) (x9 : S128.Idx → EReal) (x10 : S128x128.Idx → EReal) (x11 : S128.Idx → EReal)

/-- The gathered query rows: the first column block, projected by the first matrix and bias. -/
theorem projQ_apply (s : IVec S800000 32) (e : Fin 800000) (f : Fin 128) :
    gath (slQ (qkv x0 x4 x5 x6 x7 x8 x9)) s (ix2 e f) = Spec.lin x0 x4 x5 (Spec.rowOf (s (ix1 e))) f := by
  unfold gath normCol
  refine (KVal.gatherRow_apply _ s e f).trans ?_
  unfold slQ
  refine (KVal.sliceQ_apply _ _ f).trans ?_
  unfold qkv Spec.lin
  refine (linArr0_apply _ _ _ _ _).trans (congrArg₂ (· + ·) (Finset.sum_congr rfl fun k _ => ?_) ?_)
  · exact congrArg (x0 (ix2 (Spec.rowOf (s (ix1 e))) k) * ·) (KVal.catW_first x4 x6 x8 k f)
  · exact KVal.catB_first x5 x7 x9 f

/-- The gathered key rows: the second column block, projected by the second matrix and bias. -/
theorem projK_apply (s : IVec S800000 32) (e : Fin 800000) (f : Fin 128) :
    gath (slK (qkv x0 x4 x5 x6 x7 x8 x9)) s (ix2 e f) = Spec.lin x0 x6 x7 (Spec.rowOf (s (ix1 e))) f := by
  unfold gath normCol
  refine (KVal.gatherRow_apply _ s e f).trans ?_
  unfold slK
  refine (KVal.sliceK_apply _ _ f).trans ?_
  unfold qkv Spec.lin
  refine (linArr0_apply _ _ _ _ _).trans (congrArg₂ (· + ·) (Finset.sum_congr rfl fun k _ => ?_) ?_)
  · exact congrArg (x0 (ix2 (Spec.rowOf (s (ix1 e))) k) * ·) (KVal.catW_second x4 x6 x8 k f)
  · exact KVal.catB_second x5 x7 x9 f

/-- The gathered value rows: the third column block, projected by the third matrix and bias. -/
theorem projV_apply (s : IVec S800000 32) (e : Fin 800000) (f : Fin 128) :
    gath (slV (qkv x0 x4 x5 x6 x7 x8 x9)) s (ix2 e f) = Spec.lin x0 x8 x9 (Spec.rowOf (s (ix1 e))) f := by
  unfold gath normCol
  refine (KVal.gatherRow_apply _ s e f).trans ?_
  unfold slV
  refine (KVal.sliceV_apply _ _ f).trans ?_
  unfold qkv Spec.lin
  refine (linArr0_apply _ _ _ _ _).trans (congrArg₂ (· + ·) (Finset.sum_congr rfl fun k _ => ?_) ?_)
  · exact congrArg (x0 (ix2 (Spec.rowOf (s (ix1 e))) k) * ·) (KVal.catW_third x4 x6 x8 k f)
  · exact KVal.catB_third x5 x7 x9 f

/-- The edge projection is the projection of the edge's own row. -/
theorem projE_apply (e : Fin 800000) (f : Fin 128) :
    linArr1 x1 x10 x11 (ix2 e f) = Spec.lin x1 x10 x11 e f := rfl

/-! ## The score and the carried row -/

/-- The score array is the specified score. -/
theorem score_apply (e : Fin 800000) (h : Fin 8) :
    scoreArr (gath (slK (qkv x0 x4 x5 x6 x7 x8 x9)) x2) (gath (slQ (qkv x0 x4 x5 x6 x7 x8 x9)) x3)
        (linArr1 x1 x10 x11) tabG (ix2 e h)
      = Spec.score x0 x1 x4 x5 x6 x7 x10 x11 x2 x3 e h := by
  unfold Spec.score Spec.dotp
  refine (scoreArr_apply _ _ _ _ e h).trans (congrArg Ideal.exp (congrArg₂ (· * ·) ?_ KVal.quarter))
  refine (group_sum (fun f => gath (slK (qkv x0 x4 x5 x6 x7 x8 x9)) x2 (ix2 e f)
    * gath (slQ (qkv x0 x4 x5 x6 x7 x8 x9)) x3 (ix2 e f) * linArr1 x1 x10 x11 (ix2 e f)) h).trans ?_
  refine Finset.sum_congr rfl fun d _ => ?_
  show gath (slK (qkv x0 x4 x5 x6 x7 x8 x9)) x2 (ix2 e (Spec.hd h d))
      * gath (slQ (qkv x0 x4 x5 x6 x7 x8 x9)) x3 (ix2 e (Spec.hd h d)) * linArr1 x1 x10 x11 (ix2 e (Spec.hd h d)) = _
  rw [projK_apply, projQ_apply, projE_apply]

/-- The carried array is the specified carried row. -/
theorem carried_apply (e : Fin 800000) (f : Fin 128) :
    carArr (gath (slK (qkv x0 x4 x5 x6 x7 x8 x9)) x2) (gath (slQ (qkv x0 x4 x5 x6 x7 x8 x9)) x3)
        (linArr1 x1 x10 x11) (gath (slV (qkv x0 x4 x5 x6 x7 x8 x9)) x2) tabG tabGT (ix2 e f)
      = Spec.carried x0 x1 x4 x5 x6 x7 x8 x9 x10 x11 x2 x3 e f := by
  unfold Spec.carried
  refine (carArr_apply _ _ _ _ _ _ e f).trans (congrArg₂ (· * ·) (projV_apply x0 x4 x5 x6 x7 x8 x9 x2 e f) ?_)
  refine (spread_head (fun h => scoreArr (gath (slK (qkv x0 x4 x5 x6 x7 x8 x9)) x2)
    (gath (slQ (qkv x0 x4 x5 x6 x7 x8 x9)) x3) (linArr1 x1 x10 x11) tabG (ix2 e h)) f).trans ?_
  exact score_apply x0 x1 x2 x3 x4 x5 x6 x7 x8 x9 x10 x11 e (Spec.headOf f)

/-! ## The result -/

/-- The program's result, as a function of its twelve arguments, is the specified array. -/
theorem kernelFn_eq :
    kernelFn x0 x1 x2 x3 x4 x5 x6 x7 x8 x9 x10 x11
      = Cert.Hand.Spec.G x0 x1 x4 x5 x6 x7 x8 x9 x10 x11 x2 x3 (Ideal.ofBits .f32 0x3089705F#32) := by
  funext i
  obtain ⟨n, h, d, rfl⟩ : ∃ (n : Fin 50000) (h : Fin 8) (d : Fin 16), i = ix3 n h d := ⟨i 0, i 1, i 2, eq_ix3 i⟩
  rw [Spec.G_ix3]
  unfold kernelFn
  rw [KVal.tailK_apply]
  unfold Spec.out Spec.numer Spec.denom
  refine congrArg₂ Ideal.div (Finset.sum_congr rfl fun e _ => ?_)
    (congrArg (fun t => t + Ideal.ofBits .f32 0x3089705F#32) (Finset.sum_congr rfl fun e _ => ?_))
  · rw [carried_apply]
  · rw [score_apply]

end

end Cert.KernelIdeal.Hand

end
-- ==== Proof.LibScatterRows3.lean ====
/-
  A scatter-add of whole rows of a three-axis table, read at an index.

  Adding the rows of an update table `upd : [R, H, D]` into the rows of an operand `x : [N, H, D]` at the row numbers held
  in an integer column `idx : [R, 1]` is a scatter whose row axis is the inserted (one-element) window axis named by the
  scatter index, and whose other two axes are the update window axes. Update element `(e, h, d)` lands at row
  `idx[e, 0]` — read as a signed integer and NOT clamped: an update whose row number is outside `[0, N − 1]` is dropped
  — and at `(h, d)` inside the row. So at the extended reals element `(n, h, d)` of the result is

      x[n, h, d] + ∑ over the update rows e with idx[e, 0] = n of upd[e, h, d].
-/
import Idealize.ShloMosaic.PureOps
import Idealize.ShloMosaic.PureOps.Ideal
import Idealize.ShloMosaic.Lib.ValueIdx
import proofs.«143841_j59579786330257_1_alg».proof.Proof.LibScatterRows

namespace Cert.Hand.Ref

open Idealize.ShloMosaic Idealize.ShloMosaic.ValueIdx
open scoped BigOperators

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of that scatter for an operand `[N, H, D]`, scatter indices `[R, 1]` and updates
    `[R, H, D]`. -/
abbrev scatterRows3 (N R H D : Nat)
    (wf : ScatterDims.WF ⟨3, ![N, H, D]⟩ ⟨2, ![R, 1]⟩ ⟨3, ![R, H, D]⟩ [1, 2] [0] [0] 1) :
    ScatterDims ⟨3, ![N, H, D]⟩ ⟨2, ![R, 1]⟩ ⟨3, ![R, H, D]⟩ where
  updateWindowDims := [1, 2]
  insertedWindowDims := [0]
  scatterDimsToOperandDims := [0]
  indexVectorDim := 1
  wf := wf

section Rows3
variable {N R H D w : Nat} (wf : ScatterDims.WF ⟨3, ![N, H, D]⟩ ⟨2, ![R, 1]⟩ ⟨3, ![R, H, D]⟩ [1, 2] [0] [0] 1)

/-- The row axis is the one the scatter index names: its start is the row number `idx[e, 0]`, read signed. -/
theorem rows3_start_row (idx : IVec ⟨2, ![R, 1]⟩ w) (e : Fin R) (h' : Fin H) (d' : Fin D) :
    (scatterRows3 N R H D wf).start (ix3 e h' d') idx (0 : Fin 3) = (idx (ix2 e (0 : Fin 1))).toInt := by
  unfold ScatterDims.start
  rw [dif_pos (show (0 : Fin 3) ∈ (scatterRows3 N R H D wf).scatterDimsToOperandDims from List.mem_singleton.mpr rfl)]
  have hsi : (scatterRows3 N R H D wf).siIdx (ix3 e h' d')
      ⟨List.idxOf (0 : Fin 3) (scatterRows3 N R H D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The axes inside a row are not named by the scatter index: their start is `0`. -/
theorem rows3_start_head (idx : IVec ⟨2, ![R, 1]⟩ w) (j : (⟨3, ![R, H, D]⟩ : Shape).Idx) :
    (scatterRows3 N R H D wf).start j idx (1 : Fin 3) = 0 := by
  unfold ScatterDims.start
  rw [dif_neg (show (1 : Fin 3) ∉ ([0] : List (Fin 3)) by decide)]

theorem rows3_start_entry (idx : IVec ⟨2, ![R, 1]⟩ w) (j : (⟨3, ![R, H, D]⟩ : Shape).Idx) :
    (scatterRows3 N R H D wf).start j idx (2 : Fin 3) = 0 := by
  unfold ScatterDims.start
  rw [dif_neg (show (2 : Fin 3) ∉ ([0] : List (Fin 3)) by decide)]

/-- The row axis is an inserted window axis: no window coordinate. -/
theorem rows3_window_row (j : (⟨3, ![R, H, D]⟩ : Shape).Idx) : (scatterRows3 N R H D wf).window j (0 : Fin 3) = 0 := by
  unfold ScatterDims.window
  have h0 : (0 : Fin 3) ∉ (List.finRange 3).filter (· ∉ ([0] : List (Fin 3))) := by decide
  rw [dif_neg (show (0 : Fin 3) ∉ (scatterRows3 N R H D wf).sKept from h0)]

/-- The axes inside a row are the window axes: their window coordinates are the update's own. -/
theorem rows3_window_head (e : Fin R) (h' : Fin H) (d' : Fin D) :
    (scatterRows3 N R H D wf).window (ix3 e h' d') (1 : Fin 3) = h'.val := by
  unfold ScatterDims.window
  have h1 : (1 : Fin 3) ∈ (List.finRange 3).filter (· ∉ ([0] : List (Fin 3))) := by decide
  rw [dif_pos (show (1 : Fin 3) ∈ (scatterRows3 N R H D wf).sKept from h1)]
  rfl

theorem rows3_window_entry (e : Fin R) (h' : Fin H) (d' : Fin D) :
    (scatterRows3 N R H D wf).window (ix3 e h' d') (2 : Fin 3) = d'.val := by
  unfold ScatterDims.window
  have h2 : (2 : Fin 3) ∈ (List.finRange 3).filter (· ∉ ([0] : List (Fin 3))) := by decide
  rw [dif_pos (show (2 : Fin 3) ∈ (scatterRows3 N R H D wf).sKept from h2)]
  rfl

/-- WHERE UPDATE ELEMENT `(e, h', d')` LANDS: at `(n, h, d)` exactly when its row number `idx[e, 0]`, read signed, is `n`
    and its place inside the row is `(h, d)`. -/
theorem rows3_resultIdx?_iff (idx : IVec ⟨2, ![R, 1]⟩ w) (e : Fin R) (h' : Fin H) (d' : Fin D)
    (n : Fin N) (h : Fin H) (d : Fin D) :
    (scatterRows3 N R H D wf).resultIdx? (ix3 e h' d') idx = some (ix3 n h d)
      ↔ (idx (ix2 e (0 : Fin 1))).toInt = (n.val : Int) ∧ h' = h ∧ d' = d := by
  rw [Cert.Lib.ScatterRows.resultIdx?_eq_some_iff]
  constructor
  · intro hall
    have e0 := hall (0 : Fin 3)
    have e1 := hall (1 : Fin 3)
    have e2 := hall (2 : Fin 3)
    rw [rows3_start_row, rows3_window_row] at e0
    rw [rows3_start_head, rows3_window_head] at e1
    rw [rows3_start_entry, rows3_window_entry] at e2
    have e0' : (idx (ix2 e (0 : Fin 1))).toInt + ((0 : Nat) : Int) = (n.val : Int) := e0
    have e1' : (0 : Int) + (h'.val : Int) = (h.val : Int) := e1
    have e2' : (0 : Int) + (d'.val : Int) = (d.val : Int) := e2
    exact ⟨by omega, Fin.ext (by omega), Fin.ext (by omega)⟩
  · rintro ⟨e0, rfl, rfl⟩ a
    match a with
    | ⟨0, _⟩ =>
      show (scatterRows3 N R H D wf).start (ix3 e h' d') idx (0 : Fin 3)
        + ((scatterRows3 N R H D wf).window (ix3 e h' d') (0 : Fin 3) : Int) = (n.val : Int)
      rw [rows3_start_row, rows3_window_row]; omega
    | ⟨1, _⟩ =>
      show (scatterRows3 N R H D wf).start (ix3 e h' d') idx (1 : Fin 3)
        + ((scatterRows3 N R H D wf).window (ix3 e h' d') (1 : Fin 3) : Int) = (h'.val : Int)
      rw [rows3_start_head, rows3_window_head]; omega
    | ⟨2, _⟩ =>
      show (scatterRows3 N R H D wf).start (ix3 e h' d') idx (2 : Fin 3)
        + ((scatterRows3 N R H D wf).window (ix3 e h' d') (2 : Fin 3) : Int) = (d'.val : Int)
      rw [rows3_start_entry, rows3_window_entry]; omega

/-- THE SCATTER-ADD READ AT `(n, h, d)`: the operand's element plus the sum, over the update rows whose row number
    `idx[e, 0]` (read signed) is `n`, of their elements at `(h, d)`. -/
theorem scatterAdd_rows3_apply (x : (⟨3, ![N, H, D]⟩ : Shape).Idx → EReal) (idx : IVec ⟨2, ![R, 1]⟩ w)
    (upd : (⟨3, ![R, H, D]⟩ : Shape).Idx → EReal) (n : Fin N) (h : Fin H) (d : Fin D) :
    Ideal.hostScatterAdd (scatterRows3 N R H D wf) x idx upd (ix3 n h d)
      = x (ix3 n h d)
        + ∑ e : Fin R, if (idx (ix2 e (0 : Fin 1))).toInt = (n.val : Int) then upd (ix3 e h d) else 0 := by
  unfold Ideal.hostScatterAdd
  congr 1
  rw [Finset.sum_filter, sum_idx3]
  refine Finset.sum_congr rfl fun e _ => ?_
  by_cases he : (idx (ix2 e (0 : Fin 1))).toInt = (n.val : Int)
  · rw [if_pos he]
    refine (Finset.sum_congr rfl fun h' _ => Finset.sum_congr rfl fun d' _ =>
      if_congr ((rows3_resultIdx?_iff wf idx e h' d' n h d).trans (and_iff_right he)) rfl rfl).trans ?_
    rw [Finset.sum_eq_single h]
    · rw [Finset.sum_eq_single d]
      · exact if_pos ⟨rfl, rfl⟩
      · intro d' _ hd; exact if_neg fun hc => hd hc.2
      · intro hd; exact absurd (Finset.mem_univ d) hd
    · intro h' _ hh; exact Finset.sum_eq_zero fun d' _ => if_neg fun hc => hh hc.1
    · intro hh; exact absurd (Finset.mem_univ h) hh
  · rw [if_neg he]
    exact Finset.sum_eq_zero fun h' _ => Finset.sum_eq_zero fun d' _ =>
      if_neg fun hc => he ((rows3_resultIdx?_iff wf idx e h' d' n h d).mp hc).1

end Rows3

end Cert.Hand.Ref
-- ==== Proof.RefScatterAt.lean ====
/-
  The reference program's two scatter-adds, read at an index.

  Both add rows of an update table into a table at the rows an integer column names; the program's dimension-number
  records are the row-scatter ones, of three axes for the carried rows and of two for the scores.
-/
import proofs.«143841_j59579786330257_1_alg».proof.Proof.Gen.ReferenceIdeal.Read
import proofs.«143841_j59579786330257_1_alg».proof.Proof.Spec
import proofs.«143841_j59579786330257_1_alg».proof.Proof.LibScatterRows
import proofs.«143841_j59579786330257_1_alg».proof.Proof.LibScatterRows3

noncomputable section

namespace Cert.Hand.Ref

open Cert.ReferenceIdeal Cert.ReferenceIdeal.Gen Idealize.ShloMosaic Idealize.ShloMosaic.ValueIdx
open Cert.Hand
open scoped BigOperators

/-- The program's three-axis scatter-add at `(n, h, d)`. -/
theorem scatter_rows3_at (x : FVec Ideal S50000x8x16 .f32) (idx : IVec S800000x1 32) (upd : FVec Ideal S800000x8x16 .f32)
    (n : Fin 50000) (h : Fin 8) (d : Fin 16) :
    Host.scatterAdd (F := Ideal) (φ := .f32) scatter_S50000x8x16_S800000x1_S800000x8x16_12_0_0_1 x idx upd (ix3 n h d)
      = x (ix3 n h d)
        + ∑ e : Fin 800000, if (idx (ix2 e (0 : Fin 1))).toInt = (n.val : Int) then upd (ix3 e h d) else 0 :=
  scatterAdd_rows3_apply (N := 50000) (R := 800000) (H := 8) (D := 16)
    Facts₀.scatter_S50000x8x16_S800000x1_S800000x8x16_12_0_0_1_wf x idx upd n h d

/-- The program's two-axis scatter-add at `(n, h)`. -/
theorem scatter_rows2_at (x : FVec Ideal S50000x8 .f32) (idx : IVec S800000x1 32) (upd : FVec Ideal S800000x8 .f32)
    (n : Fin 50000) (h : Fin 8) :
    Host.scatterAdd (F := Ideal) (φ := .f32) scatter_S50000x8_S800000x1_S800000x8_1_0_0_1 x idx upd (ix2 n h)
      = x (ix2 n h)
        + ∑ e : Fin 800000, if (idx (ix2 e (0 : Fin 1))).toInt = (n.val : Int) then upd (ix2 e h) else 0 :=
  Cert.Lib.ScatterRows.scatterAdd_rows_apply (N := 50000) (R := 800000) (D := 8)
    Facts₀.scatter_S50000x8_S800000x1_S800000x8_1_0_0_1_wf x idx upd n h

end Cert.Hand.Ref

end
-- ==== Proof.LibGatherRows3.lean ====
/-
  A gather of whole rows of a three-axis table, read at an index.

  Taking rows of a table `x : [N, H, D]` at an integer column of row numbers `idx : [R, 1]` is a gather that collapses
  the row axis, keeps the other two axes as its offset axes (slices of one row, `H` by `D`) and reads each start index
  off `idx`'s second axis. Its element `(e, h, d)` is `x` at row `idx[e, 0]` — read as a signed integer and clamped
  into `[0, N − 1]`, as every start index of a gather is —, at `(h, d)` inside the row.
-/
import Idealize.ShloMosaic.PureOps
import Idealize.ShloMosaic.Lib.ValueIdx

namespace Cert.Hand.Ref

open Idealize.ShloMosaic Idealize.ShloMosaic.ValueIdx

variable {α : Type}

/-- The dimension numbers of that gather for an operand `[N, H, D]`, start indices `[R, 1]` and a result `[R, H, D]`. -/
abbrev gatherRows3 (N R H D : Nat)
    (wf : GatherDims.WF ⟨3, ![N, H, D]⟩ ⟨2, ![R, 1]⟩ ⟨3, ![R, H, D]⟩ [1, 2] [0] [] [0] [] 1 ![1, H, D]) :
    GatherDims ⟨3, ![N, H, D]⟩ ⟨2, ![R, 1]⟩ ⟨3, ![R, H, D]⟩ where
  offsetDims := [1, 2]
  collapsedSliceDims := [0]
  operandBatchingDims := []
  startIndicesBatchingDims := []
  startIndexMap := [0]
  indexVectorDim := 1
  sliceSizes := ![1, H, D]
  wf := wf

/-- THE GATHER READ AT `(e, h, d)`: the operand at the row `idx[e, 0]`, read signed and clamped into `[0, N − 1]`,
    and at `(h, d)` inside that row. -/
theorem gather_rows3_apply {N R H D w : Nat} (hN : 0 < N)
    (wf : GatherDims.WF ⟨3, ![N, H, D]⟩ ⟨2, ![R, 1]⟩ ⟨3, ![R, H, D]⟩ [1, 2] [0] [] [0] [] 1 ![1, H, D])
    (x : (⟨3, ![N, H, D]⟩ : Shape).Idx → α) (idx : IVec ⟨2, ![R, 1]⟩ w) (e : Fin R) (h : Fin H) (d : Fin D) :
    Host.gather (gatherRows3 N R H D wf) x idx (ix3 e h d)
      = x (ix3 (⟨min (idx (ix2 e (0 : Fin 1))).toInt.toNat (N - 1), by omega⟩ : Fin N) h d) := by
  unfold Host.gather
  congr 1
  funext a
  refine Fin.ext ?_
  show (gatherRows3 N R H D wf).start (ix3 e h d) idx a + (gatherRows3 N R H D wf).batchCoord (ix3 e h d) a
      + (gatherRows3 N R H D wf).offCoord (ix3 e h d) a = _
  rw [GatherDims.batchCoord_eq_zero _ _ _ List.not_mem_nil, Nat.add_zero]
  -- the row axis: collapsed (no offset), its start the clamped row number
  have row : (gatherRows3 N R H D wf).start (ix3 e h d) idx (0 : Fin 3)
      + (gatherRows3 N R H D wf).offCoord (ix3 e h d) (0 : Fin 3)
      = min (idx (ix2 e (0 : Fin 1))).toInt.toNat (N - 1) := by
    rw [GatherDims.offCoord_eq_zero _ _ _ (fun hk => ((GatherDims.mem_sKept _ _).mp hk).1 (List.mem_singleton.mpr rfl)),
      Nat.add_zero]
    unfold GatherDims.start
    rw [dif_pos (show (0 : Fin 3) ∈ (gatherRows3 N R H D wf).startIndexMap from List.mem_singleton.mpr rfl)]
    have hsi : (gatherRows3 N R H D wf).siIdx (ix3 e h d)
        ⟨List.idxOf (0 : Fin 3) (gatherRows3 N R H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the two axes inside a row: not in the start index map (start 0), the result's offset axes
  have h1 : (1 : Fin 3) ∉ ([0] : List (Fin 3)) := by decide
  have h2 : (2 : Fin 3) ∉ ([0] : List (Fin 3)) := by decide
  have head : (gatherRows3 N R H D wf).start (ix3 e h d) idx (1 : Fin 3)
      + (gatherRows3 N R H D wf).offCoord (ix3 e h d) (1 : Fin 3) = h.val := by
    have hk : (1 : Fin 3) ∈ (gatherRows3 N R H D wf).sKept := (GatherDims.mem_sKept _ _).mpr ⟨h1, List.not_mem_nil⟩
    unfold GatherDims.start GatherDims.offCoord
    rw [dif_neg h1, dif_pos hk, Nat.zero_add]
    rfl
  have entry : (gatherRows3 N R H D wf).start (ix3 e h d) idx (2 : Fin 3)
      + (gatherRows3 N R H D wf).offCoord (ix3 e h d) (2 : Fin 3) = d.val := by
    have hk : (2 : Fin 3) ∈ (gatherRows3 N R H D wf).sKept := (GatherDims.mem_sKept _ _).mpr ⟨h2, List.not_mem_nil⟩
    unfold GatherDims.start GatherDims.offCoord
    rw [dif_neg h2, dif_pos hk, Nat.zero_add]
    rfl
  match a with
  | ⟨0, _⟩ => exact row
  | ⟨1, _⟩ => exact head
  | ⟨2, _⟩ => exact entry

end Cert.Hand.Ref
-- ==== Proof.RefProj.lean ====
/-
  The four projections of the reference program, read at a row, a head and an entry.

  Each is a product of the feature rows with a 128 x 128 matrix, plus the bias broadcast along the rows, and then a
  re-reading of the 128 entries of a row as 8 heads of 16: entry `d` of head `h` is entry `16 h + d` of the row. So the
  stage at `(r, h, d)` is the specification's `lin` at row `r` and entry `16 h + d`.
-/
import proofs.«143841_j59579786330257_1_alg».proof.Proof.Gen.ReferenceIdeal.Read
import proofs.«143841_j59579786330257_1_alg».proof.Proof.Spec

noncomputable section

namespace Cert.Hand.Ref

open Cert.ReferenceIdeal Cert.ReferenceIdeal.Gen Idealize.ShloMosaic Idealize.ShloMosaic.ValueIdx
open Cert.Hand
open scoped BigOperators

/-- Stage 4 (the projection of the node rows by the first matrix, reshaped to heads) at row `r`, head `h`, entry `d`. -/
theorem proj_v4 (x0 : (⟨S50000x128, .f32⟩ : BufTy).Contents (Elt Ideal)) (x4 : (⟨S128x128, .f32⟩ : BufTy).Contents (Elt Ideal))
    (x5 : (⟨S128, .f32⟩ : BufTy).Contents (Elt Ideal)) (r : Fin 50000) (h : Fin 8) (d : Fin 16) :
    Read.val_main_v4 (F := Ideal) x0 x4 x5 (ix3 r h d) = Spec.lin x0 x4 x5 r (Spec.hd h d) := by
  have hi : Read.idx_main_v4 (ix3 r h d) = ix2 r (Spec.hd h d) := by
    funext a; refine Fin.ext ?_
    have := h.isLt; have := d.isLt
    match a with
    | ⟨0, _⟩ => show ((r.val * 8 + h.val) * 16 + d.val) / 128 = r.val; omega
    | ⟨1, _⟩ => show ((r.val * 8 + h.val) * 16 + d.val) % 128 = 16 * h.val + d.val; omega
  have el : ∀ k : Fin 128, Read.lidx_main_v0 (ix2 r (Spec.hd h d)) k = ix2 r k := fun k =>
    funext fun a => Fin.ext (by match a with | ⟨0, _⟩ => rfl | ⟨1, _⟩ => rfl)
  have er : ∀ k : Fin 128, Read.ridx_main_v0 (ix2 r (Spec.hd h d)) k = ix2 k (Spec.hd h d) := fun k =>
    funext fun a => Fin.ext (by match a with | ⟨0, _⟩ => rfl | ⟨1, _⟩ => rfl)
  have eb : Read.idx_main_v1 (Read.idx_main_v2 (ix2 r (Spec.hd h d))) = ix1 (Spec.hd h d) :=
    funext fun a => Fin.ext (by match a with | ⟨0, _⟩ => rfl)
  rw [Read.val_main_v4_apply, hi, Read.val_main_v3_apply, Read.val_main_v0_apply, Read.val_main_v2_apply,
    Read.val_main_v1_apply, eb]
  simp only [el, er]
  rfl

/-- Stage 9 (the projection of the node rows by the second matrix, reshaped to heads) at row `r`, head `h`, entry `d`. -/
theorem proj_v9 (x0 : (⟨S50000x128, .f32⟩ : BufTy).Contents (Elt Ideal)) (x6 : (⟨S128x128, .f32⟩ : BufTy).Contents (Elt Ideal))
    (x7 : (⟨S128, .f32⟩ : BufTy).Contents (Elt Ideal)) (r : Fin 50000) (h : Fin 8) (d : Fin 16) :
    Read.val_main_v9 (F := Ideal) x0 x6 x7 (ix3 r h d) = Spec.lin x0 x6 x7 r (Spec.hd h d) := by
  have hi : Read.idx_main_v9 (ix3 r h d) = ix2 r (Spec.hd h d) := by
    funext a; refine Fin.ext ?_
    have := h.isLt; have := d.isLt
    match a with
    | ⟨0, _⟩ => show ((r.val * 8 + h.val) * 16 + d.val) / 128 = r.val; omega
    | ⟨1, _⟩ => show ((r.val * 8 + h.val) * 16 + d.val) % 128 = 16 * h.val + d.val; omega
  have el : ∀ k : Fin 128, Read.lidx_main_v5 (ix2 r (Spec.hd h d)) k = ix2 r k := fun k =>
    funext fun a => Fin.ext (by match a with | ⟨0, _⟩ => rfl | ⟨1, _⟩ => rfl)
  have er : ∀ k : Fin 128, Read.ridx_main_v5 (ix2 r (Spec.hd h d)) k = ix2 k (Spec.hd h d) := fun k =>
    funext fun a => Fin.ext (by match a with | ⟨0, _⟩ => rfl | ⟨1, _⟩ => rfl)
  have eb : Read.idx_main_v6 (Read.idx_main_v7 (ix2 r (Spec.hd h d))) = ix1 (Spec.hd h d) :=
    funext fun a => Fin.ext (by match a with | ⟨0, _⟩ => rfl)
  rw [Read.val_main_v9_apply, hi, Read.val_main_v8_apply, Read.val_main_v5_apply, Read.val_main_v7_apply,
    Read.val_main_v6_apply, eb]
  simp only [el, er]
  rfl

/-- Stage 14 (the projection of the node rows by the third matrix, reshaped to heads) at row `r`, head `h`, entry `d`. -/
theorem proj_v14 (x0 : (⟨S50000x128, .f32⟩ : BufTy).Contents (Elt Ideal)) (x8 : (⟨S128x128, .f32⟩ : BufTy).Contents (Elt Ideal))
    (x9 : (⟨S128, .f32⟩ : BufTy).Contents (Elt Ideal)) (r : Fin 50000) (h : Fin 8) (d : Fin 16) :
    Read.val_main_v14 (F := Ideal) x0 x8 x9 (ix3 r h d) = Spec.lin x0 x8 x9 r (Spec.hd h d) := by
  have hi : Read.idx_main_v14 (ix3 r h d) = ix2 r (Spec.hd h d) := by
    funext a; refine Fin.ext ?_
    have := h.isLt; have := d.isLt
    match a with
    | ⟨0, _⟩ => show ((r.val * 8 + h.val) * 16 + d.val) / 128 = r.val; omega
    | ⟨1, _⟩ => show ((r.val * 8 + h.val) * 16 + d.val) % 128 = 16 * h.val + d.val; omega
  have el : ∀ k : Fin 128, Read.lidx_main_v10 (ix2 r (Spec.hd h d)) k = ix2 r k := fun k =>
    funext fun a => Fin.ext (by match a with | ⟨0, _⟩ => rfl | ⟨1, _⟩ => rfl)
  have er : ∀ k : Fin 128, Read.ridx_main_v10 (ix2 r (Spec.hd h d)) k = ix2 k (Spec.hd h d) := fun k =>
    funext fun a => Fin.ext (by match a with | ⟨0, _⟩ => rfl | ⟨1, _⟩ => rfl)
  have eb : Read.idx_main_v11 (Read.idx_main_v12 (ix2 r (Spec.hd h d))) = ix1 (Spec.hd h d) :=
    funext fun a => Fin.ext (by match a with | ⟨0, _⟩ => rfl)
  rw [Read.val_main_v14_apply, hi, Read.val_main_v13_apply, Read.val_main_v10_apply, Read.val_main_v12_apply,
    Read.val_main_v11_apply, eb]
  simp only [el, er]
  rfl

/-- Stage 19 (the projection of the edge rows by the fourth matrix, reshaped to heads) at row `r`, head `h`, entry `d`. -/
theorem proj_v19 (x1 : (⟨S800000x128, .f32⟩ : BufTy).Contents (Elt Ideal)) (x10 : (⟨S128x128, .f32⟩ : BufTy).Contents (Elt Ideal))
    (x11 : (⟨S128, .f32⟩ : BufTy).Contents (Elt Ideal)) (r : Fin 800000) (h : Fin 8) (d : Fin 16) :
    Read.val_main_v19 (F := Ideal) x1 x10 x11 (ix3 r h d) = Spec.lin x1 x10 x11 r (Spec.hd h d) := by
  have hi : Read.idx_main_v19 (ix3 r h d) = ix2 r (Spec.hd h d) := by
    funext a; refine Fin.ext ?_
    have := h.isLt; have := d.isLt
    match a with
    | ⟨0, _⟩ => show ((r.val * 8 + h.val) * 16 + d.val) / 128 = r.val; omega
    | ⟨1, _⟩ => show ((r.val * 8 + h.val) * 16 + d.val) % 128 = 16 * h.val + d.val; omega
  have el : ∀ k : Fin 128, Read.lidx_main_v15 (ix2 r (Spec.hd h d)) k = ix2 r k := fun k =>
    funext fun a => Fin.ext (by match a with | ⟨0, _⟩ => rfl | ⟨1, _⟩ => rfl)
  have er : ∀ k : Fin 128, Read.ridx_main_v15 (ix2 r (Spec.hd h d)) k = ix2 k (Spec.hd h d) := fun k =>
    funext fun a => Fin.ext (by match a with | ⟨0, _⟩ => rfl | ⟨1, _⟩ => rfl)
  have eb : Read.idx_main_v16 (Read.idx_main_v17 (ix2 r (Spec.hd h d))) = ix1 (Spec.hd h d) :=
    funext fun a => Fin.ext (by match a with | ⟨0, _⟩ => rfl)
  rw [Read.val_main_v19_apply, hi, Read.val_main_v18_apply, Read.val_main_v15_apply, Read.val_main_v17_apply,
    Read.val_main_v16_apply, eb]
  simp only [el, er]
  rfl

end Cert.Hand.Ref

end
-- ==== Proof.RefScore.lean ====
/-
  The score of every edge and head in the reference program.

  The reference normalizes each source and target word, takes the key row at the source, the query row at the target
  and the edge's own projected row, multiplies the three entry by entry, sums the 16 entries of each head, divides by
  the square root of 16 and exponentiates. Read at edge `e` and head `h` that is the specification's `score`: the
  square root of 16 is 4, and dividing by the real 4 is multiplying by the real 1/4.
-/
import proofs.«143841_j59579786330257_1_alg».proof.Proof.Gen.ReferenceIdeal.Read
import proofs.«143841_j59579786330257_1_alg».proof.Proof.Spec
import proofs.«143841_j59579786330257_1_alg».proof.Proof.LibGatherRows3
import proofs.«143841_j59579786330257_1_alg».proof.Proof.RefProj

noncomputable section

namespace Cert.Hand.Ref

open Cert.ReferenceIdeal Cert.ReferenceIdeal.Gen Idealize.ShloMosaic Idealize.ShloMosaic.ValueIdx
open Cert.Hand
open scoped BigOperators

/-! ## The one float literal that is evaluated -/

/-- The word of `16.0` denotes the real 16. -/
theorem ofBits_sixteen : Ideal.ofBits .f32 0x41800000#32 = ((16 : ℝ) : EReal) := by
  simp [Ideal.ofBits, Ideal.ieee, -EReal.coe_mul]; norm_num

/-- Its square root is the real 4. -/
theorem sqrt_sixteen : Ideal.sqrt (Ideal.ofBits .f32 0x41800000#32) = ((4 : ℝ) : EReal) := by
  have h4 : Real.sqrt 16 = 4 := by
    rw [show (16 : ℝ) = 4 ^ 2 by norm_num]; exact Real.sqrt_sq (by norm_num)
  rw [ofBits_sixteen, Ideal.sqrt_coe, if_neg (by norm_num), h4]

/-! ## The normalized index words -/

/-- Stage 25: the column of normalized words of `x2`, read at edge `e`. -/
theorem word_v25 (x2 : (⟨S800000, .i32⟩ : BufTy).Contents (Elt Ideal)) (e : Fin 800000) :
    Read.val_main_v25 (F := Ideal) x2 (ix2 e (0 : Fin 1)) = Spec.normW (x2 (ix1 e)) := by
  have hi : Read.idx_main_v25 (ix2 e (0 : Fin 1)) = ix1 e :=
    funext fun a => Fin.ext (by match a with | ⟨0, _⟩ => rfl)
  rw [Read.val_main_v25_apply, hi, Read.val_main_v24_apply, Read.val_main_v21_apply, Read.val_main_v23_apply,
    Read.val_main_v20_apply, Read.val_main_v22_apply, Read.val_main_c_apply, Read.val_main_c_0_apply]
  rfl

/-- Stage 32: the column of normalized words of `x3`, read at edge `e`. -/
theorem word_v32 (x3 : (⟨S800000, .i32⟩ : BufTy).Contents (Elt Ideal)) (e : Fin 800000) :
    Read.val_main_v32 (F := Ideal) x3 (ix2 e (0 : Fin 1)) = Spec.normW (x3 (ix1 e)) := by
  have hi : Read.idx_main_v32 (ix2 e (0 : Fin 1)) = ix1 e :=
    funext fun a => Fin.ext (by match a with | ⟨0, _⟩ => rfl)
  rw [Read.val_main_v32_apply, hi, Read.val_main_v31_apply, Read.val_main_v28_apply, Read.val_main_v30_apply,
    Read.val_main_v27_apply, Read.val_main_v29_apply, Read.val_main_c_1_apply, Read.val_main_c_2_apply]
  rfl

/-- Stage 46: the column of normalized words of `x2`, read at edge `e`. -/
theorem word_v46 (x2 : (⟨S800000, .i32⟩ : BufTy).Contents (Elt Ideal)) (e : Fin 800000) :
    Read.val_main_v46 (F := Ideal) x2 (ix2 e (0 : Fin 1)) = Spec.normW (x2 (ix1 e)) := by
  have hi : Read.idx_main_v46 (ix2 e (0 : Fin 1)) = ix1 e :=
    funext fun a => Fin.ext (by match a with | ⟨0, _⟩ => rfl)
  rw [Read.val_main_v46_apply, hi, Read.val_main_v45_apply, Read.val_main_v42_apply, Read.val_main_v44_apply,
    Read.val_main_v41_apply, Read.val_main_v43_apply, Read.val_main_c_4_apply, Read.val_main_c_5_apply]
  rfl

/-! ## Rows taken from a projected table -/

/-- The program's gather at `(e, h, d)`, when the index column holds the normalized word of `wd` at edge `e`: the
    table at the row `wd` names. -/
theorem gather_node_rows_apply {α : Type} (x : S50000x8x16.Idx → α) (idx : IVec S800000x1 32)
    (e : Fin 800000) (h : Fin 8) (d : Fin 16) (wd : BitVec 32) (hw : idx (ix2 e (0 : Fin 1)) = Spec.normW wd) :
    Host.gather gather_S50000x8x16_S800000x1_S800000x8x16_12_0_n_n_0_1_1816 x idx (ix3 e h d)
      = x (ix3 (Spec.rowOf wd) h d) := by
  refine (gather_rows3_apply (N := 50000) (R := 800000) (H := 8) (D := 16) (by decide)
    Facts₀.gather_S50000x8x16_S800000x1_S800000x8x16_12_0_n_n_0_1_1816_wf x idx e h d).trans ?_
  refine congrArg x (congrArg (fun r : Fin 50000 => ix3 r h d) (Fin.ext ?_))
  show min (idx (ix2 e (0 : Fin 1))).toInt.toNat (50000 - 1) = min (Spec.normW wd).toInt.toNat 49999
  rw [hw]

/-- Stage 26: the key row at the edge's source. -/
theorem key_at_source (x0 : (⟨S50000x128, .f32⟩ : BufTy).Contents (Elt Ideal)) (x2 : (⟨S800000, .i32⟩ : BufTy).Contents (Elt Ideal))
    (x6 : (⟨S128x128, .f32⟩ : BufTy).Contents (Elt Ideal)) (x7 : (⟨S128, .f32⟩ : BufTy).Contents (Elt Ideal))
    (e : Fin 800000) (h : Fin 8) (d : Fin 16) :
    Read.val_main_v26 (F := Ideal) x0 x2 x6 x7 (ix3 e h d)
      = Spec.lin x0 x6 x7 (Spec.rowOf (x2 (ix1 e))) (Spec.hd h d) := by
  unfold Read.val_main_v26
  rw [gather_node_rows_apply _ _ e h d (x2 (ix1 e)) (word_v25 x2 e)]
  exact proj_v9 x0 x6 x7 _ h d

/-- Stage 33: the query row at the edge's target. -/
theorem query_at_target (x0 : (⟨S50000x128, .f32⟩ : BufTy).Contents (Elt Ideal)) (x3 : (⟨S800000, .i32⟩ : BufTy).Contents (Elt Ideal))
    (x4 : (⟨S128x128, .f32⟩ : BufTy).Contents (Elt Ideal)) (x5 : (⟨S128, .f32⟩ : BufTy).Contents (Elt Ideal))
    (e : Fin 800000) (h : Fin 8) (d : Fin 16) :
    Read.val_main_v33 (F := Ideal) x0 x3 x4 x5 (ix3 e h d)
      = Spec.lin x0 x4 x5 (Spec.rowOf (x3 (ix1 e))) (Spec.hd h d) := by
  unfold Read.val_main_v33
  rw [gather_node_rows_apply _ _ e h d (x3 (ix1 e)) (word_v32 x3 e)]
  exact proj_v4 x0 x4 x5 _ h d

/-- Stage 47: the value row at the edge's source. -/
theorem value_at_source (x0 : (⟨S50000x128, .f32⟩ : BufTy).Contents (Elt Ideal)) (x2 : (⟨S800000, .i32⟩ : BufTy).Contents (Elt Ideal))
    (x8 : (⟨S128x128, .f32⟩ : BufTy).Contents (Elt Ideal)) (x9 : (⟨S128, .f32⟩ : BufTy).Contents (Elt Ideal))
    (e : Fin 800000) (h : Fin 8) (d : Fin 16) :
    Read.val_main_v47 (F := Ideal) x0 x2 x8 x9 (ix3 e h d)
      = Spec.lin x0 x8 x9 (Spec.rowOf (x2 (ix1 e))) (Spec.hd h d) := by
  unfold Read.val_main_v47
  rw [gather_node_rows_apply _ _ e h d (x2 (ix1 e)) (word_v46 x2 e)]
  exact proj_v14 x0 x8 x9 _ h d

/-! ## The head sums and the score -/

/-- Stage 36: the sum over a head's 16 entries of key times query times the edge's projection. -/
theorem dot_v36 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal))
    (e : Fin 800000) (h : Fin 8) :
    Read.val_main_v36 (F := Ideal) x0 x1 x2 x3 x4 x5 x6 x7 x10 x11 (ix2 e h)
      = Spec.dotp x0 x1 x4 x5 x6 x7 x10 x11 x2 x3 e h := by
  have hs : ∀ k : Fin 16, Read.val_main_v35 (F := Ideal) x0 x1 x2 x3 x4 x5 x6 x7 x10 x11 (Read.idx_main_v36 (ix2 e h) k)
      = Spec.lin x0 x6 x7 (Spec.rowOf (x2 (ix1 e))) (Spec.hd h k) * Spec.lin x0 x4 x5 (Spec.rowOf (x3 (ix1 e))) (Spec.hd h k)
        * Spec.lin x1 x10 x11 e (Spec.hd h k) := fun k => by
    have hi : Read.idx_main_v36 (ix2 e h) k = ix3 e h k :=
      funext fun a => Fin.ext (by match a with | ⟨0, _⟩ => rfl | ⟨1, _⟩ => rfl | ⟨2, _⟩ => rfl)
    rw [hi, Read.val_main_v35_apply, Read.val_main_v34_apply, key_at_source, query_at_target, proj_v19]
    rfl
  unfold Spec.dotp
  rw [Read.val_main_v36_apply, Read.val_main_cst_apply]
  simp only [hs]
  exact (congrArg (· + _) Ideal.ofBits_zero_f32).trans (zero_add _)

/-- Stage 40: the score of edge `e`, head `h`. -/
theorem score_v40 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal))
    (e : Fin 800000) (h : Fin 8) :
    Read.val_main_v40 (F := Ideal) x0 x1 x2 x3 x4 x5 x6 x7 x10 x11 (ix2 e h)
      = Spec.score x0 x1 x4 x5 x6 x7 x10 x11 x2 x3 e h := by
  rw [Read.val_main_v40_apply, Read.val_main_v39_apply, dot_v36, Read.val_main_v38_apply, Read.val_main_v37_apply,
    Read.val_main_cst_3_apply]
  show Ideal.exp (Ideal.div (Spec.dotp x0 x1 x4 x5 x6 x7 x10 x11 x2 x3 e h)
    (Ideal.sqrt (Ideal.ofBits .f32 0x41800000#32))) = _
  rw [sqrt_sixteen, Ideal.div_coe (by norm_num : (4 : ℝ) ≠ 0)]
  rfl

end Cert.Hand.Ref

end
-- ==== Proof.RefCarry.lean ====
/-
  What every edge carries, in the reference program.

  Each edge carries the value row of its source with every head scaled by the head's score: stage 50 at edge `e`, head
  `h`, entry `d` is the specification's `carried` at entry `16 h + d`, whose head is `h`.
-/
import proofs.«143841_j59579786330257_1_alg».proof.Proof.Gen.ReferenceIdeal.Read
import proofs.«143841_j59579786330257_1_alg».proof.Proof.Spec
import proofs.«143841_j59579786330257_1_alg».proof.Proof.RefScore

noncomputable section

namespace Cert.Hand.Ref

open Cert.ReferenceIdeal Cert.ReferenceIdeal.Gen Idealize.ShloMosaic Idealize.ShloMosaic.ValueIdx
open Cert.Hand
open scoped BigOperators

/-- Stage 50: what edge `e` carries at entry `d` of head `h`. -/
theorem carried_v50 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (e : Fin 800000) (h : Fin 8) (d : Fin 16) :
    Read.val_main_v50 (F := Ideal) x0 x1 x2 x3 x4 x5 x6 x7 x8 x9 x10 x11 (ix3 e h d)
      = Spec.carried x0 x1 x4 x5 x6 x7 x8 x9 x10 x11 x2 x3 e (Spec.hd h d) := by
  have h49 : Read.idx_main_v49 (ix3 e h d) = ix3 e h (0 : Fin 1) :=
    funext fun a => Fin.ext (by match a with | ⟨0, _⟩ => rfl | ⟨1, _⟩ => rfl | ⟨2, _⟩ => rfl)
  have h48 : Read.idx_main_v48 (ix3 e h (0 : Fin 1)) = ix2 e h :=
    funext fun a => Fin.ext (by match a with | ⟨0, _⟩ => rfl | ⟨1, _⟩ => rfl)
  unfold Spec.carried
  rw [Read.val_main_v50_apply, value_at_source, Read.val_main_v49_apply, h49, Read.val_main_v48_apply, h48, score_v40,
    Spec.headOf_hd]
  rfl

end Cert.Hand.Ref

end
-- ==== Proof.RefSums.lean ====
/-
  The numerator and the denominator of the reference program.

  The carried rows are added into a table of zeros at the rows the RAW target words name, and the scores likewise
  into a table of zeros with one column per head. Read at a node these are the specification's `numer` and `denom`:
  the table of zeros contributes `0`, and the raw target column at edge `e` is the target word of `e`.
-/
import proofs.«143841_j59579786330257_1_alg».proof.Proof.Gen.ReferenceIdeal.Read
import proofs.«143841_j59579786330257_1_alg».proof.Proof.Spec
import proofs.«143841_j59579786330257_1_alg».proof.Proof.RefScatterAt
import proofs.«143841_j59579786330257_1_alg».proof.Proof.RefCarry

noncomputable section

namespace Cert.Hand.Ref

open Cert.ReferenceIdeal Cert.ReferenceIdeal.Gen Idealize.ShloMosaic Idealize.ShloMosaic.ValueIdx
open Cert.Hand
open scoped BigOperators

/-- Stages 52 and 55: the column of RAW target words, read at edge `e`. -/
theorem word_v52 (x3 : (⟨S800000, .i32⟩ : BufTy).Contents (Elt Ideal)) (e : Fin 800000) :
    Read.val_main_v52 (F := Ideal) x3 (ix2 e (0 : Fin 1)) = x3 (ix1 e) := by
  rw [Read.val_main_v52_apply]
  exact congrArg x3 (funext fun a => Fin.ext (by match a with | ⟨0, _⟩ => rfl))

theorem word_v55 (x3 : (⟨S800000, .i32⟩ : BufTy).Contents (Elt Ideal)) (e : Fin 800000) :
    Read.val_main_v55 (F := Ideal) x3 (ix2 e (0 : Fin 1)) = x3 (ix1 e) := by
  rw [Read.val_main_v55_apply]
  exact congrArg x3 (funext fun a => Fin.ext (by match a with | ⟨0, _⟩ => rfl))

/-- Stage 53: the numerator at node `n`, head `h`, entry `d`. -/
theorem numer_v53 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (n : Fin 50000) (h : Fin 8) (d : Fin 16) :
    Read.val_main_v53 (F := Ideal) x0 x1 x2 x3 x4 x5 x6 x7 x8 x9 x10 x11 (ix3 n h d)
      = Spec.numer x0 x1 x4 x5 x6 x7 x8 x9 x10 x11 x2 x3 n (Spec.hd h d) := by
  unfold Read.val_main_v53 Spec.numer
  rw [scatter_rows3_at, Read.val_main_v51_apply, Read.val_main_cst_6_apply]
  refine (congrArg₂ (· + ·) Ideal.ofBits_zero_f32 (Finset.sum_congr rfl fun e _ => ?_)).trans (zero_add _)
  rw [word_v52, carried_v50]

/-- Stage 56: the denominator at node `n`, head `h`. -/
theorem denom_v56 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal))
    (n : Fin 50000) (h : Fin 8) :
    Read.val_main_v56 (F := Ideal) x0 x1 x2 x3 x4 x5 x6 x7 x10 x11 (ix2 n h)
      = Spec.denom x0 x1 x4 x5 x6 x7 x10 x11 x2 x3 n h := by
  unfold Read.val_main_v56 Spec.denom
  rw [scatter_rows2_at, Read.val_main_v54_apply, Read.val_main_cst_7_apply]
  refine (congrArg₂ (· + ·) Ideal.ofBits_zero_f32 (Finset.sum_congr rfl fun e _ => ?_)).trans (zero_add _)
  rw [word_v55, score_v40]

end Cert.Hand.Ref

end
-- ==== Proof.RefValue.lean ====
/-
  The reference program's result is the specification.

  The result is the table of numerators divided, entry by entry, by the table of denominators plus a small constant,
  the latter broadcast along each head's 16 entries. Read at node `n`, head `h`, entry `d` that is the specification's
  `out`; the small constant stays the word the program spells.
-/
import proofs.«143841_j59579786330257_1_alg».proof.Proof.Gen.ReferenceIdeal.Read
import proofs.«143841_j59579786330257_1_alg».proof.Proof.Spec
import proofs.«143841_j59579786330257_1_alg».proof.Proof.RefSums

noncomputable section

namespace Cert.Hand.Ref

open Cert.ReferenceIdeal Cert.ReferenceIdeal.Gen Idealize.ShloMosaic Idealize.ShloMosaic.ValueIdx
open Cert.Hand
open scoped BigOperators

/-- Stage 60: the denominator plus the small constant, at any entry `d` of head `h` of node `n`. -/
theorem divisor_v60 (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S128x128, .f32⟩ : BufTy).Contents (Elt Ideal)) (x11 : (⟨S128, .f32⟩ : BufTy).Contents (Elt Ideal))
    (n : Fin 50000) (h : Fin 8) (d : Fin 16) :
    Read.val_main_v60 (F := Ideal) x0 x1 x2 x3 x4 x5 x6 x7 x10 x11 (ix3 n h d)
      = Spec.denom x0 x1 x4 x5 x6 x7 x10 x11 x2 x3 n h + Ideal.ofBits .f32 0x3089705F#32 := by
  have h60 : Read.idx_main_v60 (ix3 n h d) = ix3 n h (0 : Fin 1) :=
    funext fun a => Fin.ext (by match a with | ⟨0, _⟩ => rfl | ⟨1, _⟩ => rfl | ⟨2, _⟩ => rfl)
  have h57 : Read.idx_main_v57 (ix3 n h (0 : Fin 1)) = ix2 n h :=
    funext fun a => Fin.ext (by match a with | ⟨0, _⟩ => rfl | ⟨1, _⟩ => rfl)
  rw [Read.val_main_v60_apply, h60, Read.val_main_v59_apply, Read.val_main_v57_apply, h57, denom_v56,
    Read.val_main_v58_apply, Read.val_main_cst_8_apply]
  rfl

/-- THE REFERENCE IS THE SPECIFICATION: its result array is `G` of its arguments, the small constant kept as the word
    the program spells. -/
theorem ref_eq (x0 : (⟨S50000x128, .f32⟩ : BufTy).Contents (Elt Ideal)) (x1 : (⟨S800000x128, .f32⟩ : BufTy).Contents (Elt Ideal))
    (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    Read.val_main_v61 (F := Ideal) x0 x1 x2 x3 x4 x5 x6 x7 x8 x9 x10 x11
      = Spec.G x0 x1 x4 x5 x6 x7 x8 x9 x10 x11 x2 x3 (Ideal.ofBits .f32 0x3089705F#32) := by
  funext i
  obtain ⟨n, h, d, rfl⟩ : ∃ (n : Fin 50000) (h : Fin 8) (d : Fin 16), i = ix3 n h d := ⟨i 0, i 1, i 2, eq_ix3 i⟩
  rw [Spec.G_ix3, Read.val_main_v61_apply, numer_v53, divisor_v60]
  rfl

end Cert.Hand.Ref

end
-- ==== Proof.lean ====
/-
  An edge-gated graph attention layer: 50000 nodes, 800000 edges, 128 features read as 8 heads of 16.

  The kernel program projects the node features once through the three weight matrices laid side by side and slices
  the result into queries, keys and values; projects the edge features; gathers, per edge, the key and value rows of the
  edge's source and the query row of its target; and in one tiled call forms, per edge and head, the score
  exp (a quarter of the sum over the head's entries of key * query * edge) — the per-head sum taken as a product with a
  0/1 grouping matrix — and the value row scaled head by head by the scores, spread back by the transposed grouping
  matrix. Per node it then sums the scaled rows and the scores of the edges that point at it and divides. The reference
  does the same with three separate projections, a sum over the last axis, a division by the square root of 16, and
  three-dimensional arrays.

  At the extended reals both are one function of the arguments (Spec.lean): a product with a 0/1 matrix is the sum
  over the entries where the matrix is 1, since x * 0 = 0 and x * 1 = x for every extended real; the square root of 16
  is 4 and dividing by 4 is multiplying by a quarter on every extended real; column j of a product with matrices laid
  side by side is column j of the product with the matrix that column comes from. No step uses that the inputs are
  finite.

  Each program's frame — every weakly fair execution terminates, nothing faults, the arguments end unchanged — comes
  from its run: the kernel programs' from the run of their seven segments (three tiled calls among four stretches of host
  lines, KB/Run.lean and KI/Run.lean, one text at two value types), the reference's from its run as a list of host lines.
  The idealization rewrote nothing, so it preserves the word-level program trivially.
-/
import proofs.«143841_j59579786330257_1_alg».proof.Defs
import proofs.«143841_j59579786330257_1_alg».proof.Proof.Gen.Kernel
import proofs.«143841_j59579786330257_1_alg».proof.Proof.Gen.KernelIdeal
import proofs.«143841_j59579786330257_1_alg».proof.Proof.Gen.ReferenceIdeal
import proofs.«143841_j59579786330257_1_alg».proof.Proof.Gen.ReferenceIdeal.Run
import proofs.«143841_j59579786330257_1_alg».proof.Proof.Gen.ReferenceIdeal.Read
import proofs.«143841_j59579786330257_1_alg».proof.Proof.Gen.Pre_finite_inputs
import proofs.«143841_j59579786330257_1_alg».proof.Proof.KB.Run
import proofs.«143841_j59579786330257_1_alg».proof.Proof.KI.Chain
import proofs.«143841_j59579786330257_1_alg».proof.Proof.KI.Bridge
import proofs.«143841_j59579786330257_1_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k [Cert.Kernel.Facts] [Cert.Pre_finite_inputs.Facts] : Cert.frame_Kernel :=
  fun m ρ _ => Cert.Kernel.Hand.frame (F := Bits) m ρ

/-- The idealized program runs and leaves its arguments unchanged. -/
theorem frame_ki [Cert.KernelIdeal.Facts] [Cert.Pre_finite_inputs.Facts] : Cert.frame_KernelIdeal :=
  fun m ρ _ => Cert.KernelIdeal.Hand.frame (F := Ideal) m ρ

/-- The reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end at the specification of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Hand.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Ideal.ofBits .f32 0x3089705F#32), ?_, ?_⟩
  · refine (θ_run Cert.KernelIdeal.defs _ _).mono (fun r h c => ⟨(h c).1.trans ?_, (h c).2⟩)
      (Cert.KernelIdeal.Hand.run_result (F := Ideal) m ρ)
    exact (Cert.KernelIdeal.Hand.result_eq m ρ c).trans (Cert.KernelIdeal.Hand.kernelFn_eq _ _ _ _ _ _ _ _ _ _ _ _)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v61_eq, Cert.Hand.Ref.ref_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
